-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S512x128 : Shape := ⟨2, ![512, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S512x128 .f32) (main_arg3 : FVec F S128 .f32) (main_arg4 : FVec F S512x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S512x128 : Shape := ⟨2, ![512, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128x128 : Shape := ⟨2, ![128, 128]⟩
abbrev S1x128 : Shape := ⟨2, ![1, 128]⟩
abbrev S5000x128 : Shape := ⟨2, ![5000, 128]⟩

abbrev nBuf : Space → Nat
  | .hbm => 149
  | .vmem => 30
  | .smem => 0
  | _ => 0

abbrev hbmTy0_0 (i : Nat) : BufTy := match i % 128 with
  | 0 => ⟨S100000x128, .f32⟩
  | 1 => ⟨S2x1600000, .i32⟩
  | 2 => ⟨S512x128, .f32⟩
  | 3 => ⟨S128, .f32⟩
  | 4 => ⟨S512x128, .f32⟩
  | 5 => ⟨S128, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x128, .f32⟩
  | 25 => ⟨S100000x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S100000x1, .f32⟩
  | 40 => ⟨S100000x128, .f32⟩
  | 41 => ⟨S100000x128, .f32⟩
  | 42 => ⟨S100000x1, .f32⟩
  | 43 => ⟨S100000x128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x1, .f32⟩
  | 59 => ⟨S100000x128, .f32⟩
  | 60 => ⟨S100000x128, .f32⟩
  | 61 => ⟨S100000x1, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x1, .f32⟩
  | 78 => ⟨S100000x128, .f32⟩
  | 79 => ⟨S100000x128, .f32⟩
  | 80 => ⟨S128x128, .f32⟩
  | 81 => ⟨S128x128, .f32⟩
  | 82 => ⟨S128x128, .f32⟩
  | 83 => ⟨S128x128, .f32⟩
  | 84 => ⟨S1x128, .f32⟩
  | 85 => ⟨S100000x128, .f32⟩
  | 86 => ⟨S100000x1, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S100000x1, .f32⟩
  | 103 => ⟨S100000x128, .f32⟩
  | 104 => ⟨S100000x128, .f32⟩
  | 105 => ⟨S100000x1, .f32⟩
  | 106 => ⟨S100000x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S100000x1, .f32⟩
  | 122 => ⟨S100000x128, .f32⟩
  | 123 => ⟨S100000x128, .f32⟩
  | 124 => ⟨S100000x1, .f32⟩
  | 125 => ⟨S100000x128, .f32⟩
  | 126 => ⟨S100000x128, .f32⟩
  | 127 => ⟨S_, .i32⟩
  | _ => ⟨S100000x128, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x128, .f32⟩
  | 8 => ⟨S_, .f32⟩
  | 9 => ⟨S100000x128, .f32⟩
  | 10 => ⟨S1600000x1, .i32⟩
  | 11 => ⟨S100000x128, .f32⟩
  | 12 => ⟨S100000x1, .f32⟩
  | 13 => ⟨S100000x128, .f32⟩
  | 14 => ⟨S100000x128, .f32⟩
  | 15 => ⟨S128x128, .f32⟩
  | 16 => ⟨S128x128, .f32⟩
  | 17 => ⟨S128x128, .f32⟩
  | 18 => ⟨S128x128, .f32⟩
  | 19 => ⟨S1x128, .f32⟩
  | 20 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_v68 : Ref sig .tc := ⟨.hbm, 90, rfl⟩
abbrev main_v69 : Ref sig .tc := ⟨.hbm, 91, rfl⟩
abbrev main_c_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_14 : Ref sig .tc := ⟨.hbm, 108, rfl⟩
abbrev main_v84 : Ref sig .tc := ⟨.hbm, 109, rfl⟩
abbrev main_v85 : Ref sig .tc := ⟨.hbm, 110, rfl⟩
abbrev main_c_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_16 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_c_17 : Ref sig .tc := ⟨.hbm, 127, rfl⟩
abbrev main_v100 : Ref sig .tc := ⟨.hbm, 128, rfl⟩
abbrev main_v101 : Ref sig .tc := ⟨.hbm, 129, rfl⟩
abbrev main_c_18 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_19 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v59) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v61) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v62) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v63) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v64) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v64) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v96) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v112) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v113) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v114) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v115) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v116) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v117) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v118) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S512x128 : Shape := ⟨2, ![512, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x512 : Shape := ⟨2, ![100000, 512]⟩
abbrev S1x128 : Shape := ⟨2, ![1, 128]⟩

abbrev nBuf : Space → Nat
  | .hbm => 153
  | .vmem => 0
  | .smem => 0
  | _ => 0

abbrev hbmTy0_0 (i : Nat) : BufTy := match i % 128 with
  | 0 => ⟨S100000x128, .f32⟩
  | 1 => ⟨S2x1600000, .i32⟩
  | 2 => ⟨S512x128, .f32⟩
  | 3 => ⟨S128, .f32⟩
  | 4 => ⟨S512x128, .f32⟩
  | 5 => ⟨S128, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x128, .f32⟩
  | 25 => ⟨S100000x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S100000x1, .f32⟩
  | 40 => ⟨S100000x128, .f32⟩
  | 41 => ⟨S100000x128, .f32⟩
  | 42 => ⟨S100000x1, .f32⟩
  | 43 => ⟨S100000x128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000x1, .f32⟩
  | 59 => ⟨S100000x128, .f32⟩
  | 60 => ⟨S100000x128, .f32⟩
  | 61 => ⟨S100000x1, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x1, .f32⟩
  | 78 => ⟨S100000x128, .f32⟩
  | 79 => ⟨S100000x128, .f32⟩
  | 80 => ⟨S100000x512, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x1, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x1, .f32⟩
  | 105 => ⟨S100000x128, .f32⟩
  | 106 => ⟨S100000x128, .f32⟩
  | 107 => ⟨S100000x1, .f32⟩
  | 108 => ⟨S100000x128, .f32⟩
  | 109 => ⟨S100000x128, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S100000x1, .f32⟩
  | 124 => ⟨S100000x128, .f32⟩
  | 125 => ⟨S100000x128, .f32⟩
  | 126 => ⟨S100000x1, .f32⟩
  | 127 => ⟨S100000x128, .f32⟩
  | _ => ⟨S100000x128, .f32⟩

abbrev hbmTy0_1 (i : Nat) : BufTy := match i % 128 with
  | 0 => ⟨S100000x128, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x128, .f32⟩
  | 10 => ⟨S_, .f32⟩
  | 11 => ⟨S100000x128, .f32⟩
  | 12 => ⟨S1600000x1, .i32⟩
  | 13 => ⟨S100000x128, .f32⟩
  | 14 => ⟨S100000x1, .f32⟩
  | 15 => ⟨S100000x128, .f32⟩
  | 16 => ⟨S100000x128, .f32⟩
  | 17 => ⟨S100000x512, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_11 : Ref sig .tc := ⟨.hbm, 91, rfl⟩
abbrev main_v68 : Ref sig .tc := ⟨.hbm, 92, rfl⟩
abbrev main_v69 : Ref sig .tc := ⟨.hbm, 93, rfl⟩
abbrev main_c_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_14 : Ref sig .tc := ⟨.hbm, 110, rfl⟩
abbrev main_v84 : Ref sig .tc := ⟨.hbm, 111, rfl⟩
abbrev main_v85 : Ref sig .tc := ⟨.hbm, 112, rfl⟩
abbrev main_c_15 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_c_17 : Ref sig .tc := ⟨.hbm, 129, rfl⟩
abbrev main_v100 : Ref sig .tc := ⟨.hbm, 130, rfl⟩
abbrev main_v101 : Ref sig .tc := ⟨.hbm, 131, rfl⟩
abbrev main_c_18 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_19 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_call2_cst : Ref sig .tc := ⟨.hbm, 150, rfl⟩
abbrev main_call2_v0 : Ref sig .tc := ⟨.hbm, 151, rfl⟩
abbrev main_v118 : Ref sig .tc := ⟨.hbm, 152, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x128_S100000x512_d1 : Shape.Concatenates [S100000x128, S100000x128, S100000x128, S100000x128] S100000x512 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x512_S512x128_S100000x128_1_0_0_1_n_n_wf : DotDims.WF S100000x512 S512x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf

class Facts : Prop extends Facts₀ where

variable [Facts]
-- ==== Proof.KernelBody.lean ====
/-
  What the kernel's body computes for one block of 5000 rows, read at row `p`, column `q` of the block: each of the four
  products of a 5000 × 128 block with a 128 × 128 weight slice, into a zero accumulator, is the plain sum over the
  contracted axis (format changes are the identity on the extended reals, a shape cast to the same shape is the
  identity); the four sums are added left to right, the bias row is added at column `q`, and the result is cut at zero.
  The two launches run the same body; their payloads are printed separately, so each is read separately.
-/
import proofs.«135305_j9680856285475_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- Row `p` of a block against column `q` of a weight slice. -/
def blockDot (x : S5000x128.Idx → EReal) (w : S128x128.Idx → EReal) (p : Fin 5000) (q : Fin 128) : EReal :=
  ∑ k : Fin 128, x (ix2 p k) * w (ix2 k q)

/-- One block's result at `[p, q]`. -/
def blockOut (x0 x1 x2 x3 : S5000x128.Idx → EReal) (w0 w1 w2 w3 : S128x128.Idx → EReal) (b : S1x128.Idx → EReal)
    (p : Fin 5000) (q : Fin 128) : EReal :=
  max (blockDot x0 w0 p q + blockDot x1 w1 p q + blockDot x2 w2 p q + blockDot x3 w3 p q + b (ix2 0 q)) 0

theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_row (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's matrix product into a zero accumulator, at `[p, q]`: the sum over the 128 contracted columns. -/
theorem matmul_at {φ₁ φ₂ : FTy} (a : FVec Ideal S5000x128 φ₁) (w : FVec Ideal S128x128 φ₂) (p : Fin 5000) (q : Fin 128) :
    FloatOps.matmul dot_S5000x128_S128x128_S5000x128_1_0_0_1_n_n none a w (constant S5000x128 .f32 0x00000000#32) (ix2 p q)
      = ∑ k : Fin 128, a (ix2 p k) * w (ix2 k q) := by
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun d => Fin.ext (by
      match d with
      | ⟨0, _⟩ => exact lhs_row _ _
      | ⟨1, _⟩ => exact (lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun d => Fin.ext (by
      match d with
      | ⟨0, _⟩ => exact (rhs_row _ _).trans hk
      | ⟨1, _⟩ => exact rhs_col _ _)
  rw [el, er]

/-- The bias row spread over the block's rows, at `[p, q]`: the bias at column `q`. -/
theorem biasRows_at (b : S1x128.Idx → EReal) (h : S1x128.Broadcasts S5000x128) (p : Fin 5000) (q : Fin 128) :
    broadcastTo S5000x128 b h (ix2 p q) = b (ix2 0 q) :=
  broadcastTo_apply b h (ix2 p q) (ix2 0 q) fun a => by
    match a with
    | ⟨0, _⟩ => show 0 = if (1 : Nat) = 1 then 0 else _; rw [if_pos rfl]
    | ⟨1, _⟩ => show q.val = if (128 : Nat) = 1 then 0 else _; rw [if_neg (by decide)]; rfl

/-- The first launch's payload at `[p, q]`. -/
theorem pay0_at (x0 x1 x2 x3 : Vec Ideal S5000x128 .f32) (w0 w1 w2 w3 : Vec Ideal S128x128 .f32) (b : Vec Ideal S1x128 .f32)
    (p : Fin 5000) (q : Fin 128) :
    k0_pay1 (F := Ideal) x0 w0 x1 w1 x2 w2 x3 w3 b (ix2 p q) = blockOut x0 x1 x2 x3 w0 w1 w2 w3 b p q := by
  unfold k0_pay1
  simp only [shapeCast_self]
  show max (FloatOps.matmul (F := Ideal) dot_S5000x128_S128x128_S5000x128_1_0_0_1_n_n none (truncf .bf16 x0 _) (truncf .bf16 w0 _) (constant S5000x128 .f32 0x00000000#32) (ix2 p q)
      + FloatOps.matmul (F := Ideal) dot_S5000x128_S128x128_S5000x128_1_0_0_1_n_n none (truncf .bf16 x1 _) (truncf .bf16 w1 _) (constant S5000x128 .f32 0x00000000#32) (ix2 p q)
      + FloatOps.matmul (F := Ideal) dot_S5000x128_S128x128_S5000x128_1_0_0_1_n_n none (truncf .bf16 x2 _) (truncf .bf16 w2 _) (constant S5000x128 .f32 0x00000000#32) (ix2 p q)
      + FloatOps.matmul (F := Ideal) dot_S5000x128_S128x128_S5000x128_1_0_0_1_n_n none (truncf .bf16 x3 _) (truncf .bf16 w3 _) (constant S5000x128 .f32 0x00000000#32) (ix2 p q)
      + broadcastTo S5000x128 b _ (ix2 p q)) (Ideal.ofBits .f32 0x00000000#32) = _
  rw [matmul_at, matmul_at, matmul_at, matmul_at, biasRows_at, Ideal.ofBits_zero_f32]
  rfl

/-- The second launch's payload at `[p, q]`. -/
theorem pay1_at (x0 x1 x2 x3 : Vec Ideal S5000x128 .f32) (w0 w1 w2 w3 : Vec Ideal S128x128 .f32) (b : Vec Ideal S1x128 .f32)
    (p : Fin 5000) (q : Fin 128) :
    k1_pay1 (F := Ideal) (k1_pay2 x0 w0 x1 w1 x2 w2 x3 w3 b) k1_pay3 (ix2 p q) = blockOut x0 x1 x2 x3 w0 w1 w2 w3 b p q := by
  unfold k1_pay1 k1_pay2 k1_pay3
  simp only [shapeCast_self]
  show max (FloatOps.matmul (F := Ideal) dot_S5000x128_S128x128_S5000x128_1_0_0_1_n_n none (truncf .bf16 x0 _) (truncf .bf16 w0 _) (constant S5000x128 .f32 0x00000000#32) (ix2 p q)
      + FloatOps.matmul (F := Ideal) dot_S5000x128_S128x128_S5000x128_1_0_0_1_n_n none (truncf .bf16 x1 _) (truncf .bf16 w1 _) (constant S5000x128 .f32 0x00000000#32) (ix2 p q)
      + FloatOps.matmul (F := Ideal) dot_S5000x128_S128x128_S5000x128_1_0_0_1_n_n none (truncf .bf16 x2 _) (truncf .bf16 w2 _) (constant S5000x128 .f32 0x00000000#32) (ix2 p q)
      + FloatOps.matmul (F := Ideal) dot_S5000x128_S128x128_S5000x128_1_0_0_1_n_n none (truncf .bf16 x3 _) (truncf .bf16 w3 _) (constant S5000x128 .f32 0x00000000#32) (ix2 p q)
      + broadcastTo S5000x128 b _ (ix2 p q)) (Ideal.ofBits .f32 0x00000000#32) = _
  rw [matmul_at, matmul_at, matmul_at, matmul_at, biasRows_at, Ideal.ofBits_zero_f32]
  rfl

end Cert.KernelIdeal.Body

end
-- ==== Proof.Layer.lean ====
/-
  The linear stage of one graph-convolution layer, as one function of whole arrays, and the law that joins its two
  spellings.

  A layer takes four feature arrays `h0 … h3` (the node features and their one-, two- and three-hop propagations), each
  100000 × 128, a weight of 512 = 4·128 rows and 128 columns, and a bias of 128 entries. Its result at node `r`, column
  `q` is
      max (Σ_c Σ_{k<128} h_c[r, k] · W[128·c + k, q] + b[q]) 0.
  One spelling contracts each `h_c` with its own 128-row slice of `W` and adds the four partial products
  (`linearRelu`); the other lays the four arrays side by side along the column axis and contracts once over all 512
  columns. They agree because a sum over `Fin 512` is the sum over the four consecutive runs of 128 indices — a fact of
  any commutative additive monoid, so of the extended reals, with no finiteness asked of the entries.
-/
import Idealize.ShloMosaic.PureOps.Ideal
import Idealize.ShloMosaic.PureOps.Ideal.Laws
import Idealize.ShloMosaic.Lib.ValueIdx
import Idealize.ShloMosaic.Lib.Pipeline.Value

noncomputable section

namespace Cert.TagLinear

open Idealize.ShloMosaic Idealize.ShloMosaic.ValueIdx

abbrev Feat : Shape := ⟨2, ![100000, 128]⟩
abbrev FeatAll : Shape := ⟨2, ![100000, 512]⟩
abbrev Wgt : Shape := ⟨2, ![128, 128]⟩
abbrev WgtAll : Shape := ⟨2, ![512, 128]⟩
abbrev BiasRow : Shape := ⟨2, ![1, 128]⟩
abbrev BiasFlat : Shape := ⟨1, ![128]⟩

/-- Row `r` of `h` against column `q` of `w`: one 128-term partial product. -/
def dotRow (h : Feat.Idx → EReal) (w : Wgt.Idx → EReal) (r : Fin 100000) (q : Fin 128) : EReal :=
  ∑ k : Fin 128, h (ix2 r k) * w (ix2 k q)

/-- The layer's linear stage with the weight already cut into its four 128-row slices: the four partial products added
    left to right, the bias row added, the negative part cut off. -/
def linearReluAt (h0 h1 h2 h3 : Feat.Idx → EReal) (w0 w1 w2 w3 : Wgt.Idx → EReal) (b : BiasRow.Idx → EReal)
    (r : Fin 100000) (q : Fin 128) : EReal :=
  max (dotRow h0 w0 r q + dotRow h1 w1 r q + dotRow h2 w2 r q + dotRow h3 w3 r q + b (ix2 0 q)) 0

/-- The same as an array: entry `i` is the value at `i`'s row and column. -/
def linearRelu (h0 h1 h2 h3 : Feat.Idx → EReal) (w0 w1 w2 w3 : Wgt.Idx → EReal) (b : BiasRow.Idx → EReal) :
    Feat.Idx → EReal :=
  fun i => linearReluAt h0 h1 h2 h3 w0 w1 w2 w3 b (i 0) (i 1)

theorem linearRelu_ix2 (h0 h1 h2 h3 : Feat.Idx → EReal) (w0 w1 w2 w3 : Wgt.Idx → EReal) (b : BiasRow.Idx → EReal)
    (r : Fin 100000) (q : Fin 128) :
    linearRelu h0 h1 h2 h3 w0 w1 w2 w3 b (ix2 r q) = linearReluAt h0 h1 h2 h3 w0 w1 w2 w3 b r q := rfl

/-- A sum over 512 indices is the sum of its four consecutive runs of 128. -/
theorem sum_512_runs (f : Fin 512 → EReal) :
    ∑ j : Fin 512, f j
      = ∑ k : Fin 128, f ⟨k.val, by omega⟩ + ∑ k : Fin 128, f ⟨128 + k.val, by omega⟩
        + ∑ k : Fin 128, f ⟨256 + k.val, by omega⟩ + ∑ k : Fin 128, f ⟨384 + k.val, by omega⟩ := by
  have e : ∑ j : Fin 512, f j = ∑ x : Fin 4 × Fin 128, f (finProdFinEquiv x) :=
    (Equiv.sum_comp (finProdFinEquiv (m := 4) (n := 128)) f).symm
  rw [e, Fintype.sum_prod_type, Fin.sum_univ_four]
  have run : ∀ (c : Fin 4) (o : Nat) (ho : o = 128 * c.val) (hb : ∀ k : Fin 128, o + k.val < 512),
      ∑ k : Fin 128, f (finProdFinEquiv (c, k)) = ∑ k : Fin 128, f ⟨o + k.val, hb k⟩ := fun c o ho hb =>
    Finset.sum_congr rfl fun k _ => congrArg f (Fin.ext (by
      show k.val + 128 * c.val = o + k.val
      omega))
  rw [run 0 0 rfl (fun k => by omega), run 1 128 rfl (fun k => by omega), run 2 256 rfl (fun k => by omega),
    run 3 384 rfl (fun k => by omega)]
  refine congrArg₂ (· + ·) (congrArg₂ (· + ·) (congrArg₂ (· + ·) ?_ rfl) rfl) rfl
  exact Finset.sum_congr rfl fun k _ => congrArg f (Fin.ext (Nat.zero_add _))

/-- The four feature arrays laid side by side along the column axis. -/
abbrev sideBySide (h0 h1 h2 h3 : Feat.Idx → EReal) : List ((s : Shape) × (s.Idx → EReal)) :=
  [⟨Feat, h0⟩, ⟨Feat, h1⟩, ⟨Feat, h2⟩, ⟨Feat, h3⟩]

/-- Column `128·c + k` of the side-by-side array is column `k` of its `c`-th piece. -/
theorem sideBySide_apply (h0 h1 h2 h3 : Feat.Idx → EReal)
    (hc : Shape.Concatenates ((sideBySide h0 h1 h2 h3).map (·.1)) FeatAll 1) (r : Fin 100000) (k : Fin 128) :
    concatenate FeatAll 1 (sideBySide h0 h1 h2 h3) hc (ix2 r ⟨k.val, by omega⟩) = h0 (ix2 r k)
    ∧ concatenate FeatAll 1 (sideBySide h0 h1 h2 h3) hc (ix2 r ⟨128 + k.val, by omega⟩) = h1 (ix2 r k)
    ∧ concatenate FeatAll 1 (sideBySide h0 h1 h2 h3) hc (ix2 r ⟨256 + k.val, by omega⟩) = h2 (ix2 r k)
    ∧ concatenate FeatAll 1 (sideBySide h0 h1 h2 h3) hc (ix2 r ⟨384 + k.val, by omega⟩) = h3 (ix2 r k) := by
  have off : ∀ (j : Fin 512) (b : Fin Feat.rank), b.cast (rfl : Feat.rank = FeatAll.rank) ≠ 1 →
      ((ix2 r k : Feat.Idx) b).val = ((ix2 r j : FeatAll.Idx) (b.cast rfl)).val := fun j b hb => by
    match b with
    | ⟨0, _⟩ => rfl
    | ⟨1, _⟩ => exact absurd rfl hb
  refine ⟨?_, ?_, ?_, ?_⟩
  · exact concatenate_apply_piece 1 _ hc _ 0 (by show 0 < 4; omega) Feat h0 rfl rfl 0 (by rfl) (ix2 r k) (off _)
      (by show 0 + k.val = k.val; omega)
  · exact concatenate_apply_piece 1 _ hc _ 1 (by show 1 < 4; omega) Feat h1 rfl rfl 128 (by rfl) (ix2 r k) (off _)
      (by show 128 + k.val = 128 + k.val; rfl)
  · exact concatenate_apply_piece 1 _ hc _ 2 (by show 2 < 4; omega) Feat h2 rfl rfl 256 (by rfl) (ix2 r k) (off _)
      (by show 256 + k.val = 256 + k.val; rfl)
  · exact concatenate_apply_piece 1 _ hc _ 3 (by show 3 < 4; omega) Feat h3 rfl rfl 384 (by rfl) (ix2 r k) (off _)
      (by show 384 + k.val = 384 + k.val; rfl)

/-- Rows `o … o + 127` of the weight, read at `[k, q]`, are the weight at `[o + k, q]`. -/
theorem rows_apply (W : WgtAll.Idx → EReal) (o : Nat) (s : WgtAll.Slices ![o, 0] Wgt) (k q : Fin 128) (hb : o + k.val < 512) :
    extractStridedSlice Wgt ![o, 0] W s (ix2 k q) = W (ix2 ⟨o + k.val, hb⟩ q) :=
  extractStridedSlice_apply ![o, 0] W s (ix2 k q) (ix2 ⟨o + k.val, hb⟩ q) fun a => by
    match a with
    | ⟨0, _⟩ => rfl
    | ⟨1, _⟩ => show q.val = 0 + q.val; omega

/-- The flat bias seen as one row. -/
theorem biasRow_apply (bf : BiasFlat.Idx → EReal) (sb : BiasFlat.ShapeCasts BiasRow) (q : Fin 128) :
    shapeCast BiasRow bf sb (ix2 0 q) = bf (ix1 q) := by
  have e := shapeCast_addUnit_apply (α := EReal) ![128] bf sb (ix2 0 q)
  refine e.trans (congrArg bf (funext fun a => ?_))
  match a with
  | ⟨0, _⟩ => rfl

/-- THE LAW. One contraction over all 512 columns of the side-by-side array, plus the flat bias, cut at zero, is the
    layer function of the four pieces, the weight's four 128-row slices and the bias as a row. -/
theorem contract_sideBySide (h0 h1 h2 h3 : Feat.Idx → EReal) (W : WgtAll.Idx → EReal) (bf : BiasFlat.Idx → EReal)
    (hc : Shape.Concatenates ((sideBySide h0 h1 h2 h3).map (·.1)) FeatAll 1)
    (s0 : WgtAll.Slices ![0, 0] Wgt) (s1 : WgtAll.Slices ![128, 0] Wgt) (s2 : WgtAll.Slices ![256, 0] Wgt)
    (s3 : WgtAll.Slices ![384, 0] Wgt) (sb : BiasFlat.ShapeCasts BiasRow) (r : Fin 100000) (q : Fin 128) :
    max (∑ j : Fin 512, concatenate FeatAll 1 (sideBySide h0 h1 h2 h3) hc (ix2 r j) * W (ix2 j q) + bf (ix1 q)) 0
      = linearReluAt h0 h1 h2 h3 (extractStridedSlice Wgt ![0, 0] W s0) (extractStridedSlice Wgt ![128, 0] W s1)
          (extractStridedSlice Wgt ![256, 0] W s2) (extractStridedSlice Wgt ![384, 0] W s3) (shapeCast BiasRow bf sb) r q := by
  unfold linearReluAt dotRow
  rw [sum_512_runs, biasRow_apply]
  refine congrArg (max · 0) (congrArg (· + bf (ix1 q)) ?_)
  refine congrArg₂ (· + ·) (congrArg₂ (· + ·) (congrArg₂ (· + ·) ?_ ?_) ?_) ?_
  · exact Finset.sum_congr rfl fun k _ => by
      rw [(sideBySide_apply h0 h1 h2 h3 hc r k).1, rows_apply W 0 s0 k q (by omega)]
      exact congrArg (fun t => h0 (ix2 r k) * W (ix2 t q)) (Fin.ext (Nat.zero_add _).symm)
  · exact Finset.sum_congr rfl fun k _ => by
      rw [(sideBySide_apply h0 h1 h2 h3 hc r k).2.1, rows_apply W 128 s1 k q (by omega)]
  · exact Finset.sum_congr rfl fun k _ => by
      rw [(sideBySide_apply h0 h1 h2 h3 hc r k).2.2.1, rows_apply W 256 s2 k q (by omega)]
  · exact Finset.sum_congr rfl fun k _ => by
      rw [(sideBySide_apply h0 h1 h2 h3 hc r k).2.2.2, rows_apply W 384 s3 k q (by omega)]

end Cert.TagLinear

end
-- ==== Proof.KernelBlocks0.lean ====
/-
  The first launch, from blocks to the whole array. Grid point `t` (of 20) works on rows `5000·t … 5000·t + 4999`: it
  is handed that block of rows of each of the four feature arrays, the four 128 × 128 weight slices whole and the
  bias row whole, and writes back the block's result. Read through the blocks, what point `t` writes back is rows
  `5000·t …` of ONE whole-array function of the nine arrays as the launch finds them — the layer function
  `linearRelu` — and the 20 blocks cover all 100000 rows, so after the launch the result array holds that function.
  Stated for any contents `V` the launch may find.
-/
import proofs.«135305_j9680856285475_1_alg».proof.Proof.Gen.KernelIdeal.Frame
import proofs.«135305_j9680856285475_1_alg».proof.Proof.KernelBody
import proofs.«135305_j9680856285475_1_alg».proof.Proof.Layer

set_option maxRecDepth 16384

noncomputable section

namespace Cert.KernelIdeal.Blocks0

open Cert.KernelIdeal Cert.KernelIdeal.Gen Cert.KernelIdeal.Body Cert.TagLinear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the four feature windows and the result window sit on block row `t`; the
    weight slices and the bias row are always the one whole block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem point_lt (t : Fin cfg0.N) : t.val < 20 := lt_of_lt_of_eq t.isLt N_0

/-- The body's result on blocks that are rows `5000·T …` of whole arrays is the layer function of the whole arrays
    at row `5000·T + p`. -/
theorem body_on_rows (x0 x1 x2 x3 : Vec Ideal S5000x128 .f32) (w0 w1 w2 w3 : Vec Ideal S128x128 .f32) (b : Vec Ideal S1x128 .f32)
    (H0 H1 H2 H3 : Feat.Idx → EReal) (W0 W1 W2 W3 : Wgt.Idx → EReal) (B : BiasRow.Idx → EReal) (T : Nat) (hT : T < 20)
    (e0 : ∀ (p : Fin 5000) (k : Fin 128), x0 (ix2 p k) = H0 (ix2 ⟨T * 5000 + p.val, by omega⟩ k))
    (e1 : ∀ (p : Fin 5000) (k : Fin 128), x1 (ix2 p k) = H1 (ix2 ⟨T * 5000 + p.val, by omega⟩ k))
    (e2 : ∀ (p : Fin 5000) (k : Fin 128), x2 (ix2 p k) = H2 (ix2 ⟨T * 5000 + p.val, by omega⟩ k))
    (e3 : ∀ (p : Fin 5000) (k : Fin 128), x3 (ix2 p k) = H3 (ix2 ⟨T * 5000 + p.val, by omega⟩ k))
    (f0 : ∀ k q : Fin 128, w0 (ix2 k q) = W0 (ix2 k q)) (f1 : ∀ k q : Fin 128, w1 (ix2 k q) = W1 (ix2 k q))
    (f2 : ∀ k q : Fin 128, w2 (ix2 k q) = W2 (ix2 k q)) (f3 : ∀ k q : Fin 128, w3 (ix2 k q) = W3 (ix2 k q))
    (g : ∀ q : Fin 128, b (ix2 0 q) = B (ix2 0 q)) (p : Fin 5000) (q : Fin 128) :
    k0_pay1 (F := Ideal) x0 w0 x1 w1 x2 w2 x3 w3 b (ix2 p q)
      = linearReluAt H0 H1 H2 H3 W0 W1 W2 W3 B ⟨T * 5000 + p.val, by omega⟩ q := by
  rw [pay0_at]
  unfold blockOut blockDot linearReluAt dotRow
  simp only [e0, e1, e2, e3, f0, f1, f2, f3, g]

/-- WHAT POINT `t` WRITES BACK is block `t` of the layer function of the arrays the launch finds. -/
theorem flushed_eq (c : Dev nD) (t : Fin cfg0.N) :
    (dat0 V c).flushed 9 t = ((cfg0.win 9).blk t).view.read (Elt Ideal)
      (linearRelu (V c main_arg0) (V c main_v26) (V c main_v42) (V c main_v58)
        (V c main_v59) (V c main_v60) (V c main_v61) (V c main_v62) (V c main_v63)) := by
  show (cfg0.win 9).cut (grid0.coords t) ((dat0 V c).after 9 t) = _
  rw [after0_9]
  unfold out0_9
  rw [View.canon_unit_zero origin]
  simp only [View.ld_unit_zero (S := S5000x128) origin, View.ld_unit_zero (S := S128x128) origin,
    View.ld_unit_zero (S := S1x128) origin]
  obtain ⟨a00, a01, a10, a11, a20, a21, a30, a31, a40, a41, a50, a51, a60, a61, a70, a71, a80, a81, a90, a91⟩ := index_facts t
  have ht := point_lt t
  have rows : ∀ (A : Feat.Idx → EReal) (p : Fin 5000) (k : Fin 128) (e : S100000x128.Idx)
      (h0 : (e 0).val = t.val * 5000 + p.val) (h1 : (e 1).val = k.val), A e = A (ix2 ⟨t.val * 5000 + p.val, by omega⟩ k) :=
    fun A p k e h0 h1 => congrArg A (funext fun a => Fin.ext (by
      match a with
      | ⟨0, _⟩ => exact h0
      | ⟨1, _⟩ => exact h1))
  have whole : ∀ (A : Wgt.Idx → EReal) (k q : Fin 128) (e : S128x128.Idx) (h0 : (e 0).val = k.val) (h1 : (e 1).val = q.val),
      A e = A (ix2 k q) :=
    fun A k q e h0 h1 => congrArg A (funext fun a => Fin.ext (by
      match a with
      | ⟨0, _⟩ => exact h0
      | ⟨1, _⟩ => exact h1))
  have key : ∀ j : S5000x128.Idx,
      k0_pay1 (F := Ideal) (iblk0 V c 0 t) (iblk0 V c 4 t) (iblk0 V c 1 t) (iblk0 V c 5 t) (iblk0 V c 2 t) (iblk0 V c 6 t)
        (iblk0 V c 3 t) (iblk0 V c 7 t) (iblk0 V c 8 t) j
      = linearRelu (V c main_arg0) (V c main_v26) (V c main_v42) (V c main_v58)
          (V c main_v59) (V c main_v60) (V c main_v61) (V c main_v62) (V c main_v63) (((cfg0.win 9).blk t).view.emb j) := by
    intro j
    obtain ⟨p, q, rfl⟩ : ∃ (p : Fin 5000) (q : Fin 128), j = ix2 p q := ⟨j 0, j 1, eq_ix2 j⟩
    refine (body_on_rows (iblk0 V c 0 t) (iblk0 V c 1 t) (iblk0 V c 2 t) (iblk0 V c 3 t) (iblk0 V c 4 t) (iblk0 V c 5 t)
      (iblk0 V c 6 t) (iblk0 V c 7 t) (iblk0 V c 8 t) (V c main_arg0) (V c main_v26) (V c main_v42) (V c main_v58)
      (V c main_v59) (V c main_v60) (V c main_v61) (V c main_v62) (V c main_v63) t.val ht
      ?_ ?_ ?_ ?_ ?_ ?_ ?_ ?_ ?_ p q).trans ?_
    · intro p k
      refine rows (V c main_arg0) p k (((cfg0.win 0).blk t).view.emb (ix2 p k)) ?_ ?_
      · show win0_0.index t (0 : Fin 2) * 5000 + 1 * p.val = t.val * 5000 + p.val; omega
      · show win0_0.index t (1 : Fin 2) * 128 + 1 * k.val = k.val; omega
    · intro p k
      refine rows (V c main_v26) p k (((cfg0.win 1).blk t).view.emb (ix2 p k)) ?_ ?_
      · show win0_1.index t (0 : Fin 2) * 5000 + 1 * p.val = t.val * 5000 + p.val; omega
      · show win0_1.index t (1 : Fin 2) * 128 + 1 * k.val = k.val; omega
    · intro p k
      refine rows (V c main_v42) p k (((cfg0.win 2).blk t).view.emb (ix2 p k)) ?_ ?_
      · show win0_2.index t (0 : Fin 2) * 5000 + 1 * p.val = t.val * 5000 + p.val; omega
      · show win0_2.index t (1 : Fin 2) * 128 + 1 * k.val = k.val; omega
    · intro p k
      refine rows (V c main_v58) p k (((cfg0.win 3).blk t).view.emb (ix2 p k)) ?_ ?_
      · show win0_3.index t (0 : Fin 2) * 5000 + 1 * p.val = t.val * 5000 + p.val; omega
      · show win0_3.index t (1 : Fin 2) * 128 + 1 * k.val = k.val; omega
    · intro k q
      refine whole (V c main_v59) k q (((cfg0.win 4).blk t).view.emb (ix2 k q)) ?_ ?_
      · show win0_4.index t (0 : Fin 2) * 128 + 1 * k.val = k.val; omega
      · show win0_4.index t (1 : Fin 2) * 128 + 1 * q.val = q.val; omega
    · intro k q
      refine whole (V c main_v60) k q (((cfg0.win 5).blk t).view.emb (ix2 k q)) ?_ ?_
      · show win0_5.index t (0 : Fin 2) * 128 + 1 * k.val = k.val; omega
      · show win0_5.index t (1 : Fin 2) * 128 + 1 * q.val = q.val; omega
    · intro k q
      refine whole (V c main_v61) k q (((cfg0.win 6).blk t).view.emb (ix2 k q)) ?_ ?_
      · show win0_6.index t (0 : Fin 2) * 128 + 1 * k.val = k.val; omega
      · show win0_6.index t (1 : Fin 2) * 128 + 1 * q.val = q.val; omega
    · intro k q
      refine whole (V c main_v62) k q (((cfg0.win 7).blk t).view.emb (ix2 k q)) ?_ ?_
      · show win0_7.index t (0 : Fin 2) * 128 + 1 * k.val = k.val; omega
      · show win0_7.index t (1 : Fin 2) * 128 + 1 * q.val = q.val; omega
    · intro q
      refine congrArg (V c main_v63) (funext fun a => Fin.ext ?_)
      match a with
      | ⟨0, _⟩ => show win0_8.index t (0 : Fin 2) * 1 + 1 * 0 = 0; omega
      | ⟨1, _⟩ => show win0_8.index t (1 : Fin 2) * 128 + 1 * q.val = q.val; omega
    · refine (linearRelu_ix2 _ _ _ _ _ _ _ _ _ _ q).symm.trans (congrArg _ (funext fun a => Fin.ext ?_))
      match a with
      | ⟨0, _⟩ => show t.val * 5000 + p.val = win0_9.index t (0 : Fin 2) * 5000 + 1 * p.val; omega
      | ⟨1, _⟩ => show q.val = win0_9.index t (1 : Fin 2) * 128 + 1 * q.val; omega
  funext j
  exact key j

/-- An index of the result array is in point `t`'s block iff each coordinate is in the block's range on its axis. -/
theorem mem_blk (t : Fin cfg0.N) (i : S100000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v64).slice (win0_9.rect t)).set ↔ _
  rw [View.set_slice_whole, Rect.mem_set_unit]
  exact Iff.rfl

/-- Row `r` lies in the block of point `r / 5000`. -/
theorem covered (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; omega⟩
  obtain ⟨a00, a01, a10, a11, a20, a21, a30, a31, a40, a41, a50, a51, a60, a61, a70, a71, a80, a81, a90, a91⟩ := index_facts t
  have tv : t.val = (i 0).val / 5000 := rfl
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- THE RESULT ARRAY AFTER THE LAUNCH: the layer function of the nine arrays the launch finds. -/
theorem result (c : Dev nD) :
    (dat0 V c).arrAt 9 cfg0.N = linearRelu (V c main_arg0) (V c main_v26) (V c main_v42) (V c main_v58)
        (V c main_v59) (V c main_v60) (V c main_v61) (V c main_v62) (V c main_v63) :=
  (dat0 V c).arrAt_eq_of_cover 9 _ (fun t _ => flushed_eq V c t) (covered)

end Cert.KernelIdeal.Blocks0

end
-- ==== Proof.KernelBlocks1.lean ====
/-
  The second launch, from blocks to the whole array: the same reading as the first launch's, over its own windows. Grid point `t` (of 20) works on rows `5000·t … 5000·t + 4999`: it
  is handed that block of rows of each of the four feature arrays, the four 128 × 128 weight slices whole and the
  bias row whole, and writes back the block's result. Read through the blocks, what point `t` writes back is rows
  `5000·t …` of ONE whole-array function of the nine arrays as the launch finds them — the layer function
  `linearRelu` — and the 20 blocks cover all 100000 rows, so after the launch the result array holds that function.
  Stated for any contents `V` the launch may find.
-/
import proofs.«135305_j9680856285475_1_alg».proof.Proof.Gen.KernelIdeal.Frame
import proofs.«135305_j9680856285475_1_alg».proof.Proof.KernelBody
import proofs.«135305_j9680856285475_1_alg».proof.Proof.Layer

set_option maxRecDepth 16384

noncomputable section

namespace Cert.KernelIdeal.Blocks1

open Cert.KernelIdeal Cert.KernelIdeal.Gen Cert.KernelIdeal.Body Cert.TagLinear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the four feature windows and the result window sit on block row `t`; the
    weight slices and the bias row are always the one whole block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem point_lt (t : Fin cfg1.N) : t.val < 20 := lt_of_lt_of_eq t.isLt N_1

/-- The body's result on blocks that are rows `5000·T …` of whole arrays is the layer function of the whole arrays
    at row `5000·T + p`. -/
theorem body_on_rows (x0 x1 x2 x3 : Vec Ideal S5000x128 .f32) (w0 w1 w2 w3 : Vec Ideal S128x128 .f32) (b : Vec Ideal S1x128 .f32)
    (H0 H1 H2 H3 : Feat.Idx → EReal) (W0 W1 W2 W3 : Wgt.Idx → EReal) (B : BiasRow.Idx → EReal) (T : Nat) (hT : T < 20)
    (e0 : ∀ (p : Fin 5000) (k : Fin 128), x0 (ix2 p k) = H0 (ix2 ⟨T * 5000 + p.val, by omega⟩ k))
    (e1 : ∀ (p : Fin 5000) (k : Fin 128), x1 (ix2 p k) = H1 (ix2 ⟨T * 5000 + p.val, by omega⟩ k))
    (e2 : ∀ (p : Fin 5000) (k : Fin 128), x2 (ix2 p k) = H2 (ix2 ⟨T * 5000 + p.val, by omega⟩ k))
    (e3 : ∀ (p : Fin 5000) (k : Fin 128), x3 (ix2 p k) = H3 (ix2 ⟨T * 5000 + p.val, by omega⟩ k))
    (f0 : ∀ k q : Fin 128, w0 (ix2 k q) = W0 (ix2 k q)) (f1 : ∀ k q : Fin 128, w1 (ix2 k q) = W1 (ix2 k q))
    (f2 : ∀ k q : Fin 128, w2 (ix2 k q) = W2 (ix2 k q)) (f3 : ∀ k q : Fin 128, w3 (ix2 k q) = W3 (ix2 k q))
    (g : ∀ q : Fin 128, b (ix2 0 q) = B (ix2 0 q)) (p : Fin 5000) (q : Fin 128) :
    k1_pay1 (F := Ideal) (k1_pay2 x0 w0 x1 w1 x2 w2 x3 w3 b) k1_pay3 (ix2 p q)
      = linearReluAt H0 H1 H2 H3 W0 W1 W2 W3 B ⟨T * 5000 + p.val, by omega⟩ q := by
  rw [pay1_at]
  unfold blockOut blockDot linearReluAt dotRow
  simp only [e0, e1, e2, e3, f0, f1, f2, f3, g]

/-- WHAT POINT `t` WRITES BACK is block `t` of the layer function of the arrays the launch finds. -/
theorem flushed_eq (c : Dev nD) (t : Fin cfg1.N) :
    (dat1 V c).flushed 9 t = ((cfg1.win 9).blk t).view.read (Elt Ideal)
      (linearRelu (V c main_v64) (V c main_v80) (V c main_v96) (V c main_v112)
        (V c main_v113) (V c main_v114) (V c main_v115) (V c main_v116) (V c main_v117)) := by
  show (cfg1.win 9).cut (grid1.coords t) ((dat1 V c).after 9 t) = _
  rw [after1_9]
  unfold out1_9
  rw [View.canon_unit_zero origin]
  simp only [View.ld_unit_zero (S := S5000x128) origin, View.ld_unit_zero (S := S128x128) origin,
    View.ld_unit_zero (S := S1x128) origin]
  obtain ⟨a00, a01, a10, a11, a20, a21, a30, a31, a40, a41, a50, a51, a60, a61, a70, a71, a80, a81, a90, a91⟩ := index_facts t
  have ht := point_lt t
  have rows : ∀ (A : Feat.Idx → EReal) (p : Fin 5000) (k : Fin 128) (e : S100000x128.Idx)
      (h0 : (e 0).val = t.val * 5000 + p.val) (h1 : (e 1).val = k.val), A e = A (ix2 ⟨t.val * 5000 + p.val, by omega⟩ k) :=
    fun A p k e h0 h1 => congrArg A (funext fun a => Fin.ext (by
      match a with
      | ⟨0, _⟩ => exact h0
      | ⟨1, _⟩ => exact h1))
  have whole : ∀ (A : Wgt.Idx → EReal) (k q : Fin 128) (e : S128x128.Idx) (h0 : (e 0).val = k.val) (h1 : (e 1).val = q.val),
      A e = A (ix2 k q) :=
    fun A k q e h0 h1 => congrArg A (funext fun a => Fin.ext (by
      match a with
      | ⟨0, _⟩ => exact h0
      | ⟨1, _⟩ => exact h1))
  have key : ∀ j : S5000x128.Idx,
      k1_pay1 (F := Ideal) (k1_pay2 (iblk1 V c 0 t) (iblk1 V c 4 t) (iblk1 V c 1 t) (iblk1 V c 5 t) (iblk1 V c 2 t) (iblk1 V c 6 t)
        (iblk1 V c 3 t) (iblk1 V c 7 t) (iblk1 V c 8 t)) k1_pay3 j
      = linearRelu (V c main_v64) (V c main_v80) (V c main_v96) (V c main_v112)
          (V c main_v113) (V c main_v114) (V c main_v115) (V c main_v116) (V c main_v117) (((cfg1.win 9).blk t).view.emb j) := by
    intro j
    obtain ⟨p, q, rfl⟩ : ∃ (p : Fin 5000) (q : Fin 128), j = ix2 p q := ⟨j 0, j 1, eq_ix2 j⟩
    refine (body_on_rows (iblk1 V c 0 t) (iblk1 V c 1 t) (iblk1 V c 2 t) (iblk1 V c 3 t) (iblk1 V c 4 t) (iblk1 V c 5 t)
      (iblk1 V c 6 t) (iblk1 V c 7 t) (iblk1 V c 8 t) (V c main_v64) (V c main_v80) (V c main_v96) (V c main_v112)
      (V c main_v113) (V c main_v114) (V c main_v115) (V c main_v116) (V c main_v117) t.val ht
      ?_ ?_ ?_ ?_ ?_ ?_ ?_ ?_ ?_ p q).trans ?_
    · intro p k
      refine rows (V c main_v64) p k (((cfg1.win 0).blk t).view.emb (ix2 p k)) ?_ ?_
      · show win1_0.index t (0 : Fin 2) * 5000 + 1 * p.val = t.val * 5000 + p.val; omega
      · show win1_0.index t (1 : Fin 2) * 128 + 1 * k.val = k.val; omega
    · intro p k
      refine rows (V c main_v80) p k (((cfg1.win 1).blk t).view.emb (ix2 p k)) ?_ ?_
      · show win1_1.index t (0 : Fin 2) * 5000 + 1 * p.val = t.val * 5000 + p.val; omega
      · show win1_1.index t (1 : Fin 2) * 128 + 1 * k.val = k.val; omega
    · intro p k
      refine rows (V c main_v96) p k (((cfg1.win 2).blk t).view.emb (ix2 p k)) ?_ ?_
      · show win1_2.index t (0 : Fin 2) * 5000 + 1 * p.val = t.val * 5000 + p.val; omega
      · show win1_2.index t (1 : Fin 2) * 128 + 1 * k.val = k.val; omega
    · intro p k
      refine rows (V c main_v112) p k (((cfg1.win 3).blk t).view.emb (ix2 p k)) ?_ ?_
      · show win1_3.index t (0 : Fin 2) * 5000 + 1 * p.val = t.val * 5000 + p.val; omega
      · show win1_3.index t (1 : Fin 2) * 128 + 1 * k.val = k.val; omega
    · intro k q
      refine whole (V c main_v113) k q (((cfg1.win 4).blk t).view.emb (ix2 k q)) ?_ ?_
      · show win1_4.index t (0 : Fin 2) * 128 + 1 * k.val = k.val; omega
      · show win1_4.index t (1 : Fin 2) * 128 + 1 * q.val = q.val; omega
    · intro k q
      refine whole (V c main_v114) k q (((cfg1.win 5).blk t).view.emb (ix2 k q)) ?_ ?_
      · show win1_5.index t (0 : Fin 2) * 128 + 1 * k.val = k.val; omega
      · show win1_5.index t (1 : Fin 2) * 128 + 1 * q.val = q.val; omega
    · intro k q
      refine whole (V c main_v115) k q (((cfg1.win 6).blk t).view.emb (ix2 k q)) ?_ ?_
      · show win1_6.index t (0 : Fin 2) * 128 + 1 * k.val = k.val; omega
      · show win1_6.index t (1 : Fin 2) * 128 + 1 * q.val = q.val; omega
    · intro k q
      refine whole (V c main_v116) k q (((cfg1.win 7).blk t).view.emb (ix2 k q)) ?_ ?_
      · show win1_7.index t (0 : Fin 2) * 128 + 1 * k.val = k.val; omega
      · show win1_7.index t (1 : Fin 2) * 128 + 1 * q.val = q.val; omega
    · intro q
      refine congrArg (V c main_v117) (funext fun a => Fin.ext ?_)
      match a with
      | ⟨0, _⟩ => show win1_8.index t (0 : Fin 2) * 1 + 1 * 0 = 0; omega
      | ⟨1, _⟩ => show win1_8.index t (1 : Fin 2) * 128 + 1 * q.val = q.val; omega
    · refine (linearRelu_ix2 _ _ _ _ _ _ _ _ _ _ q).symm.trans (congrArg _ (funext fun a => Fin.ext ?_))
      match a with
      | ⟨0, _⟩ => show t.val * 5000 + p.val = win1_9.index t (0 : Fin 2) * 5000 + 1 * p.val; omega
      | ⟨1, _⟩ => show q.val = win1_9.index t (1 : Fin 2) * 128 + 1 * q.val; omega
  funext j
  exact key j

/-- An index of the result array is in point `t`'s block iff each coordinate is in the block's range on its axis. -/
theorem mem_blk (t : Fin cfg1.N) (i : S100000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v118).slice (win1_9.rect t)).set ↔ _
  rw [View.set_slice_whole, Rect.mem_set_unit]
  exact Iff.rfl

/-- Row `r` lies in the block of point `r / 5000`. -/
theorem covered (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; omega⟩
  obtain ⟨a00, a01, a10, a11, a20, a21, a30, a31, a40, a41, a50, a51, a60, a61, a70, a71, a80, a81, a90, a91⟩ := index_facts t
  have tv : t.val = (i 0).val / 5000 := rfl
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- THE RESULT ARRAY AFTER THE LAUNCH: the layer function of the nine arrays the launch finds. -/
theorem result (c : Dev nD) :
    (dat1 V c).arrAt 9 cfg1.N = linearRelu (V c main_v64) (V c main_v80) (V c main_v96) (V c main_v112)
        (V c main_v113) (V c main_v114) (V c main_v115) (V c main_v116) (V c main_v117) :=
  (dat1 V c).arrAt_eq_of_cover 9 _ (fun t _ => flushed_eq V c t) (covered)

end Cert.KernelIdeal.Blocks1

end
-- ==== Proof.Propagate.lean ====
/-
  The graph propagation both programs run on the host, named once.

  The edge list is a 2 × 1600000 array of node numbers: row 0 the source of each edge, row 1 its destination.
  `degNorm` is each node's in-degree (a scatter-add of ones over the destinations), raised to at least one, to the
  power −1/2. One `hop` scales a feature array row by row by `degNorm`, gathers the row of each edge's source (a
  negative node number first moved up by 100000, as array indexing does), scatter-adds the gathered rows at the
  edges' destinations, and scales by `degNorm` again: D^(-1/2) A D^(-1/2) applied to the features. Both programs
  spell these steps with the same operations in the same order; the definitions here are that spelling, so each
  program's own stages are these terms by unfolding.
-/
import proofs.«135305_j9680856285475_1_alg».proof.Proof.Gen.ReferenceIdeal
import proofs.«135305_j9680856285475_1_alg».proof.Proof.Layer

noncomputable section

namespace Cert.Propagate

open Cert.ReferenceIdeal Cert.ReferenceIdeal.Facts₀ Idealize.ShloMosaic

variable {F : FTy → Type} [FloatOps F]

/-- The sources of the edges: row 0 of the edge list. -/
def srcOf (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The destinations of the edges: row 1 of the edge list. -/
def dstOf (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- Each node's in-degree: ones added up at the edges' destinations. -/
def inDeg (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- A degree raised to at least `one`. -/
def atLeast (one : (⟨S_, .f32⟩ : BufTy).Contents (Elt F)) (deg : (⟨S100000, .f32⟩ : BufTy).Contents (Elt F)) :
    (⟨S100000, .f32⟩ : BufTy).Contents (Elt F) :=
  maximumf (broadcastInDim S100000 ![] bcast_S_S100000 (id one)) deg

/-- The power −1/2, entry by entry. -/
def invSqrt (d : (⟨S100000, .f32⟩ : BufTy).Contents (Elt F)) : (⟨S100000, .f32⟩ : BufTy).Contents (Elt F) :=
  Host.powf d (broadcastInDim S100000 ![] bcast_S_S100000 (constant S_ .f32 0xBF000000#32))

/-- In-degree, at least one, to the power −1/2. -/
def degNorm (dst : (⟨S1600000, .i32⟩ : BufTy).Contents (Elt F)) : (⟨S100000, .f32⟩ : BufTy).Contents (Elt F) :=
  invSqrt (atLeast (constant S_ .f32 0x3F800000#32) (inDeg dst))

/-- The per-node factor spread along each row. -/
def rowScale (norm : (⟨S100000, .f32⟩ : BufTy).Contents (Elt F)) : (⟨S100000x128, .f32⟩ : BufTy).Contents (Elt F) :=
  broadcastInDim S100000x128 ![0, 1] bcast_S100000x1_S100000x128_0_1 (broadcastInDim S100000x1 ![0] bcast_S100000_S100000x1_0 norm)

/-- One hop: scale, gather along the edges' sources, add up at their destinations, scale. -/
def hop (norm : (⟨S100000, .f32⟩ : BufTy).Contents (Elt F)) (src dst : (⟨S1600000, .i32⟩ : BufTy).Contents (Elt F))
    (h : (⟨S100000x128, .f32⟩ : BufTy).Contents (Elt F)) : (⟨S100000x128, .f32⟩ : BufTy).Contents (Elt F) :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128
        (mulf h (rowScale norm))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (rowScale norm)

/-- One hop along the graph given by the edge list `ei`. -/
def hopOf (ei : (⟨S2x1600000, .i32⟩ : BufTy).Contents (Elt F)) (h : (⟨S100000x128, .f32⟩ : BufTy).Contents (Elt F)) :
    (⟨S100000x128, .f32⟩ : BufTy).Contents (Elt F) :=
  hop (degNorm (dstOf ei)) (srcOf ei) (dstOf ei) h

/-- The reference's linear stage: the four arrays side by side, one contraction over all 512 columns with the whole
    weight, the flat bias spread over the rows and added, the negative part cut off. -/
def refLinear (h0 h1 h2 h3 : (⟨S100000x128, .f32⟩ : BufTy).Contents (Elt F)) (W : (⟨S512x128, .f32⟩ : BufTy).Contents (Elt F))
    (b : (⟨S128, .f32⟩ : BufTy).Contents (Elt F)) : (⟨S100000x128, .f32⟩ : BufTy).Contents (Elt F) :=
  maximumf
    (addf
      (Host.dotGeneral dot_S100000x512_S512x128_S100000x128_1_0_0_1_n_n none
        (concatenate S100000x512 1 [⟨S100000x128, h0⟩, ⟨S100000x128, h1⟩, ⟨S100000x128, h2⟩, ⟨S100000x128, h3⟩]
          concatenates_S100000x128_S100000x128_S100000x128_S100000x128_S100000x512_d1) W)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- One whole layer as the reference spells it. -/
def refLayer (ei : (⟨S2x1600000, .i32⟩ : BufTy).Contents (Elt F)) (h : (⟨S100000x128, .f32⟩ : BufTy).Contents (Elt F))
    (W : (⟨S512x128, .f32⟩ : BufTy).Contents (Elt F)) (b : (⟨S128, .f32⟩ : BufTy).Contents (Elt F)) :
    (⟨S100000x128, .f32⟩ : BufTy).Contents (Elt F) :=
  refLinear h (hopOf ei h) (hopOf ei (hopOf ei h)) (hopOf ei (hopOf ei (hopOf ei h))) W b

/-- One whole layer at the extended reals: the features, their three successive hops, the linear stage over the four. -/
def layerOut (ei : (⟨S2x1600000, .i32⟩ : BufTy).Contents (Elt Ideal)) (h : (⟨S100000x128, .f32⟩ : BufTy).Contents (Elt Ideal))
    (w0 w1 w2 w3 : Cert.TagLinear.Wgt.Idx → EReal) (b : Cert.TagLinear.BiasRow.Idx → EReal) : Cert.TagLinear.Feat.Idx → EReal :=
  Cert.TagLinear.linearRelu h
    (hop (degNorm (dstOf ei)) (srcOf ei) (dstOf ei) h)
    (hop (degNorm (dstOf ei)) (srcOf ei) (dstOf ei) (hop (degNorm (dstOf ei)) (srcOf ei) (dstOf ei) h))
    (hop (degNorm (dstOf ei)) (srcOf ei) (dstOf ei) (hop (degNorm (dstOf ei)) (srcOf ei) (dstOf ei)
      (hop (degNorm (dstOf ei)) (srcOf ei) (dstOf ei) h)))
    w0 w1 w2 w3 b

end Cert.Propagate

end
-- ==== Proof.KernelEntry0.lean ====
/-
  What the first launch finds. Before it the host computes, from the edge list, the edges' sources and destinations and
  the degree factor; from the input features their first, second and third hops; the first weight's four 128-row
  slices; and the first bias as a row. The host operations come in three stretches; each stretch is read over ANY
  contents `U` it may start from, and the three readings are then chained from the launch memory.
-/
import proofs.«135305_j9680856285475_1_alg».proof.Proof.Gen.KernelIdeal.Frame
import proofs.«135305_j9680856285475_1_alg».proof.Proof.Propagate

set_option maxRecDepth 16384

noncomputable section

namespace Cert.KernelIdeal.Entry0

open Cert.KernelIdeal Cert.KernelIdeal.Gen Cert.Propagate
open Idealize.ShloMosaic Idealize.ShloMosaic.TcCoe Idealize.SL.Sem Idealize.ShloMosaic.StableHlo

section Stretches

variable (U : Valuation τ sig (Elt Ideal))

/-! ### The first stretch: the edge list's two rows, the in-degree -/

set_option maxHeartbeats 40000000 in
theorem a_src : StableHlo.after hostOps0 U (Proc.devRef .tc main_v1) = srcOf (U (Proc.devRef .tc main_arg1)) := by
  after_results_simp <;> rfl
set_option maxHeartbeats 40000000 in
theorem a_dst : StableHlo.after hostOps0 U (Proc.devRef .tc main_v3) = dstOf (U (Proc.devRef .tc main_arg1)) := by
  after_results_simp <;> rfl
set_option maxHeartbeats 40000000 in
theorem a_deg : StableHlo.after hostOps0 U (Proc.devRef .tc main_v7) = inDeg (dstOf (U (Proc.devRef .tc main_arg1))) := by
  after_results_simp <;> rfl
set_option maxHeartbeats 40000000 in
theorem a_one : StableHlo.after hostOps0 U (Proc.devRef .tc main_cst_1) = constant (F := Ideal) S_ .f32 0x3F800000#32 := by
  after_results_simp <;> rfl
set_option maxHeartbeats 40000000 in
theorem a_keep_main_arg0 : StableHlo.after hostOps0 U (Proc.devRef .tc main_arg0) = U (Proc.devRef .tc main_arg0) := by
  after_results_simp <;> rfl
set_option maxHeartbeats 40000000 in
theorem a_keep_main_arg2 : StableHlo.after hostOps0 U (Proc.devRef .tc main_arg2) = U (Proc.devRef .tc main_arg2) := by
  after_results_simp <;> rfl
set_option maxHeartbeats 40000000 in
theorem a_keep_main_arg3 : StableHlo.after hostOps0 U (Proc.devRef .tc main_arg3) = U (Proc.devRef .tc main_arg3) := by
  after_results_simp <;> rfl
set_option maxHeartbeats 40000000 in
theorem a_keep_main_arg4 : StableHlo.after hostOps0 U (Proc.devRef .tc main_arg4) = U (Proc.devRef .tc main_arg4) := by
  after_results_simp <;> rfl
set_option maxHeartbeats 40000000 in
theorem a_keep_main_arg5 : StableHlo.after hostOps0 U (Proc.devRef .tc main_arg5) = U (Proc.devRef .tc main_arg5) := by
  after_results_simp <;> rfl

/-! ### The second stretch: the degree raised to at least one -/

set_option maxHeartbeats 40000000 in
theorem b_clip : StableHlo.after hostOps0_1 U (Proc.devRef .tc main_v8) = atLeast (U (Proc.devRef .tc main_cst_1)) (U (Proc.devRef .tc main_v7)) := by
  after_results_simp <;> rfl
set_option maxHeartbeats 40000000 in
theorem b_keep_main_v1 : StableHlo.after hostOps0_1 U (Proc.devRef .tc main_v1) = U (Proc.devRef .tc main_v1) := by
  after_results_simp <;> rfl
set_option maxHeartbeats 40000000 in
theorem b_keep_main_v3 : StableHlo.after hostOps0_1 U (Proc.devRef .tc main_v3) = U (Proc.devRef .tc main_v3) := by
  after_results_simp <;> rfl
set_option maxHeartbeats 40000000 in
theorem b_keep_main_arg0 : StableHlo.after hostOps0_1 U (Proc.devRef .tc main_arg0) = U (Proc.devRef .tc main_arg0) := by
  after_results_simp <;> rfl
set_option maxHeartbeats 40000000 in
theorem b_keep_main_arg2 : StableHlo.after hostOps0_1 U (Proc.devRef .tc main_arg2) = U (Proc.devRef .tc main_arg2) := by
  after_results_simp <;> rfl
set_option maxHeartbeats 40000000 in
theorem b_keep_main_arg3 : StableHlo.after hostOps0_1 U (Proc.devRef .tc main_arg3) = U (Proc.devRef .tc main_arg3) := by
  after_results_simp <;> rfl
set_option maxHeartbeats 40000000 in
theorem b_keep_main_arg4 : StableHlo.after hostOps0_1 U (Proc.devRef .tc main_arg4) = U (Proc.devRef .tc main_arg4) := by
  after_results_simp <;> rfl
set_option maxHeartbeats 40000000 in
theorem b_keep_main_arg5 : StableHlo.after hostOps0_1 U (Proc.devRef .tc main_arg5) = U (Proc.devRef .tc main_arg5) := by
  after_results_simp <;> rfl

/-! ### The third stretch: the degree factor, the three hops, the weight's slices, the bias row -/

set_option maxHeartbeats 40000000 in
theorem c_norm : StableHlo.after hostOps0_2 U (Proc.devRef .tc main_v10) = invSqrt (U (Proc.devRef .tc main_v8)) := by
  after_results_simp <;> rfl
set_option maxHeartbeats 40000000 in
theorem c_feat1 : StableHlo.after hostOps0_2 U (Proc.devRef .tc main_v26) = hop (invSqrt (U (Proc.devRef .tc main_v8))) (U (Proc.devRef .tc main_v1)) (U (Proc.devRef .tc main_v3)) (U (Proc.devRef .tc main_arg0)) := by
  after_results_simp <;> rfl
set_option maxHeartbeats 40000000 in
theorem c_feat2 : StableHlo.after hostOps0_2 U (Proc.devRef .tc main_v42) = hop (invSqrt (U (Proc.devRef .tc main_v8))) (U (Proc.devRef .tc main_v1)) (U (Proc.devRef .tc main_v3)) (hop (invSqrt (U (Proc.devRef .tc main_v8))) (U (Proc.devRef .tc main_v1)) (U (Proc.devRef .tc main_v3)) (U (Proc.devRef .tc main_arg0))) := by
  after_results_simp <;> rfl
set_option maxHeartbeats 40000000 in
theorem c_feat3 : StableHlo.after hostOps0_2 U (Proc.devRef .tc main_v58) = hop (invSqrt (U (Proc.devRef .tc main_v8))) (U (Proc.devRef .tc main_v1)) (U (Proc.devRef .tc main_v3)) (hop (invSqrt (U (Proc.devRef .tc main_v8))) (U (Proc.devRef .tc main_v1)) (U (Proc.devRef .tc main_v3)) (hop (invSqrt (U (Proc.devRef .tc main_v8))) (U (Proc.devRef .tc main_v1)) (U (Proc.devRef .tc main_v3)) (U (Proc.devRef .tc main_arg0)))) := by
  after_results_simp <;> rfl
set_option maxHeartbeats 40000000 in
theorem c_w0 : StableHlo.after hostOps0_2 U (Proc.devRef .tc main_v59) = extractStridedSlice S128x128 ![0, 0] (U (Proc.devRef .tc main_arg2)) slices_S512x128_S128x128_0_0 := by
  after_results_simp <;> rfl
set_option maxHeartbeats 40000000 in
theorem c_w1 : StableHlo.after hostOps0_2 U (Proc.devRef .tc main_v60) = extractStridedSlice S128x128 ![128, 0] (U (Proc.devRef .tc main_arg2)) slices_S512x128_S128x128_128_0 := by
  after_results_simp <;> rfl
set_option maxHeartbeats 40000000 in
theorem c_w2 : StableHlo.after hostOps0_2 U (Proc.devRef .tc main_v61) = extractStridedSlice S128x128 ![256, 0] (U (Proc.devRef .tc main_arg2)) slices_S512x128_S128x128_256_0 := by
  after_results_simp <;> rfl
set_option maxHeartbeats 40000000 in
theorem c_w3 : StableHlo.after hostOps0_2 U (Proc.devRef .tc main_v62) = extractStridedSlice S128x128 ![384, 0] (U (Proc.devRef .tc main_arg2)) slices_S512x128_S128x128_384_0 := by
  after_results_simp <;> rfl
set_option maxHeartbeats 40000000 in
theorem c_bias : StableHlo.after hostOps0_2 U (Proc.devRef .tc main_v63) = shapeCast S1x128 (U (Proc.devRef .tc main_arg3)) shapeCasts_S128_S1x128 := by
  after_results_simp <;> rfl
set_option maxHeartbeats 40000000 in
theorem c_keep_main_v1 : StableHlo.after hostOps0_2 U (Proc.devRef .tc main_v1) = U (Proc.devRef .tc main_v1) := by
  after_results_simp <;> rfl
set_option maxHeartbeats 40000000 in
theorem c_keep_main_v3 : StableHlo.after hostOps0_2 U (Proc.devRef .tc main_v3) = U (Proc.devRef .tc main_v3) := by
  after_results_simp <;> rfl
set_option maxHeartbeats 40000000 in
theorem c_keep_main_arg0 : StableHlo.after hostOps0_2 U (Proc.devRef .tc main_arg0) = U (Proc.devRef .tc main_arg0) := by
  after_results_simp <;> rfl
set_option maxHeartbeats 40000000 in
theorem c_keep_main_arg4 : StableHlo.after hostOps0_2 U (Proc.devRef .tc main_arg4) = U (Proc.devRef .tc main_arg4) := by
  after_results_simp <;> rfl
set_option maxHeartbeats 40000000 in
theorem c_keep_main_arg5 : StableHlo.after hostOps0_2 U (Proc.devRef .tc main_arg5) = U (Proc.devRef .tc main_arg5) := by
  after_results_simp <;> rfl

end Stretches

/-! ## Chained from the launch memory -/

variable (m : (ℓ : Loc nD τ sig) → Buf (Elt Ideal) ℓ) (ρ : Dev nD → PrngReg) (c : Dev nD)

/-- A buffer the three stretches leave alone holds its launch contents. -/
theorem w2_src : W2 m ρ c (Proc.devRef .tc main_v1) = srcOf (m ((c : Thread nD τ).loc main_arg1)) :=
  (b_keep_main_v1 (W1 m ρ c)).trans (a_src (W0 m ρ c))
theorem w2_dst : W2 m ρ c (Proc.devRef .tc main_v3) = dstOf (m ((c : Thread nD τ).loc main_arg1)) :=
  (b_keep_main_v3 (W1 m ρ c)).trans (a_dst (W0 m ρ c))
theorem w2_clip : W2 m ρ c (Proc.devRef .tc main_v8) = atLeast (constant S_ .f32 0x3F800000#32) (inDeg (dstOf (m ((c : Thread nD τ).loc main_arg1)))) := by
  refine (b_clip (W1 m ρ c)).trans ?_
  rw [show W1 m ρ c (Proc.devRef .tc main_cst_1) = _ from a_one (W0 m ρ c), show W1 m ρ c (Proc.devRef .tc main_v7) = _ from a_deg (W0 m ρ c)]
theorem w2_main_arg0 : W2 m ρ c (Proc.devRef .tc main_arg0) = m ((c : Thread nD τ).loc main_arg0) :=
  (b_keep_main_arg0 (W1 m ρ c)).trans (a_keep_main_arg0 (W0 m ρ c))
theorem w2_main_arg2 : W2 m ρ c (Proc.devRef .tc main_arg2) = m ((c : Thread nD τ).loc main_arg2) :=
  (b_keep_main_arg2 (W1 m ρ c)).trans (a_keep_main_arg2 (W0 m ρ c))
theorem w2_main_arg3 : W2 m ρ c (Proc.devRef .tc main_arg3) = m ((c : Thread nD τ).loc main_arg3) :=
  (b_keep_main_arg3 (W1 m ρ c)).trans (a_keep_main_arg3 (W0 m ρ c))
theorem w2_main_arg4 : W2 m ρ c (Proc.devRef .tc main_arg4) = m ((c : Thread nD τ).loc main_arg4) :=
  (b_keep_main_arg4 (W1 m ρ c)).trans (a_keep_main_arg4 (W0 m ρ c))
theorem w2_main_arg5 : W2 m ρ c (Proc.devRef .tc main_arg5) = m ((c : Thread nD τ).loc main_arg5) :=
  (b_keep_main_arg5 (W1 m ρ c)).trans (a_keep_main_arg5 (W0 m ρ c))

theorem src_eq : V3 m ρ c main_v1 = srcOf (m ((c : Thread nD τ).loc main_arg1)) := (c_keep_main_v1 (W2 m ρ c)).trans (w2_src m ρ c)
theorem dst_eq : V3 m ρ c main_v3 = dstOf (m ((c : Thread nD τ).loc main_arg1)) := (c_keep_main_v3 (W2 m ρ c)).trans (w2_dst m ρ c)
theorem feat0_eq : V3 m ρ c main_arg0 = m ((c : Thread nD τ).loc main_arg0) := (c_keep_main_arg0 (W2 m ρ c)).trans (w2_main_arg0 m ρ c)
theorem arg4_eq : V3 m ρ c main_arg4 = m ((c : Thread nD τ).loc main_arg4) := (c_keep_main_arg4 (W2 m ρ c)).trans (w2_main_arg4 m ρ c)
theorem arg5_eq : V3 m ρ c main_arg5 = m ((c : Thread nD τ).loc main_arg5) := (c_keep_main_arg5 (W2 m ρ c)).trans (w2_main_arg5 m ρ c)
theorem norm_eq : V3 m ρ c main_v10 = degNorm (dstOf (m ((c : Thread nD τ).loc main_arg1))) := by
  refine (c_norm (W2 m ρ c)).trans ?_
  rw [w2_clip]; rfl
theorem feat1_eq : V3 m ρ c main_v26 = hop (degNorm (dstOf (m ((c : Thread nD τ).loc main_arg1)))) (srcOf (m ((c : Thread nD τ).loc main_arg1))) (dstOf (m ((c : Thread nD τ).loc main_arg1))) (m ((c : Thread nD τ).loc main_arg0)) := by
  refine (c_feat1 (W2 m ρ c)).trans ?_
  rw [w2_clip, w2_src, w2_dst, w2_main_arg0]; rfl
theorem feat2_eq : V3 m ρ c main_v42 = hop (degNorm (dstOf (m ((c : Thread nD τ).loc main_arg1)))) (srcOf (m ((c : Thread nD τ).loc main_arg1))) (dstOf (m ((c : Thread nD τ).loc main_arg1))) (hop (degNorm (dstOf (m ((c : Thread nD τ).loc main_arg1)))) (srcOf (m ((c : Thread nD τ).loc main_arg1))) (dstOf (m ((c : Thread nD τ).loc main_arg1))) (m ((c : Thread nD τ).loc main_arg0))) := by
  refine (c_feat2 (W2 m ρ c)).trans ?_
  rw [w2_clip, w2_src, w2_dst, w2_main_arg0]; rfl
theorem feat3_eq : V3 m ρ c main_v58 = hop (degNorm (dstOf (m ((c : Thread nD τ).loc main_arg1)))) (srcOf (m ((c : Thread nD τ).loc main_arg1))) (dstOf (m ((c : Thread nD τ).loc main_arg1))) (hop (degNorm (dstOf (m ((c : Thread nD τ).loc main_arg1)))) (srcOf (m ((c : Thread nD τ).loc main_arg1))) (dstOf (m ((c : Thread nD τ).loc main_arg1))) (hop (degNorm (dstOf (m ((c : Thread nD τ).loc main_arg1)))) (srcOf (m ((c : Thread nD τ).loc main_arg1))) (dstOf (m ((c : Thread nD τ).loc main_arg1))) (m ((c : Thread nD τ).loc main_arg0)))) := by
  refine (c_feat3 (W2 m ρ c)).trans ?_
  rw [w2_clip, w2_src, w2_dst, w2_main_arg0]; rfl
theorem w0_eq : V3 m ρ c main_v59 = extractStridedSlice S128x128 ![0, 0] (m ((c : Thread nD τ).loc main_arg2)) slices_S512x128_S128x128_0_0 := by
  refine (c_w0 (W2 m ρ c)).trans ?_
  rw [w2_main_arg2]
theorem w1_eq : V3 m ρ c main_v60 = extractStridedSlice S128x128 ![128, 0] (m ((c : Thread nD τ).loc main_arg2)) slices_S512x128_S128x128_128_0 := by
  refine (c_w1 (W2 m ρ c)).trans ?_
  rw [w2_main_arg2]
theorem w2_eq : V3 m ρ c main_v61 = extractStridedSlice S128x128 ![256, 0] (m ((c : Thread nD τ).loc main_arg2)) slices_S512x128_S128x128_256_0 := by
  refine (c_w2 (W2 m ρ c)).trans ?_
  rw [w2_main_arg2]
theorem w3_eq : V3 m ρ c main_v62 = extractStridedSlice S128x128 ![384, 0] (m ((c : Thread nD τ).loc main_arg2)) slices_S512x128_S128x128_384_0 := by
  refine (c_w3 (W2 m ρ c)).trans ?_
  rw [w2_main_arg2]
theorem bias_eq : V3 m ρ c main_v63 = shapeCast S1x128 (m ((c : Thread nD τ).loc main_arg3)) shapeCasts_S128_S1x128 := by
  refine (c_bias (W2 m ρ c)).trans ?_
  rw [w2_main_arg3]

end Cert.KernelIdeal.Entry0

end
-- ==== Proof.KernelEntry1.lean ====
/-
  What the second launch finds, in terms of the contents `U` left by the first: between the launches the host computes
  the three hops of the first launch's result (with the degree factor and the edges' sources and destinations computed
  earlier), the second weight's four 128-row slices and the second bias as a row; the first launch's result itself is
  left as it was.
-/
import proofs.«135305_j9680856285475_1_alg».proof.Proof.Gen.KernelIdeal.Frame
import proofs.«135305_j9680856285475_1_alg».proof.Proof.Propagate

set_option maxRecDepth 16384

noncomputable section

namespace Cert.KernelIdeal.Entry1

open Cert.KernelIdeal Cert.KernelIdeal.Gen Cert.Propagate
open Idealize.ShloMosaic Idealize.ShloMosaic.TcCoe Idealize.SL.Sem Idealize.ShloMosaic.StableHlo

variable (U : Valuation τ sig (Elt Ideal))

set_option maxHeartbeats 40000000 in
theorem feat0_eq : StableHlo.after hostOps1 U (Proc.devRef .tc main_v64) = U (Proc.devRef .tc main_v64) := by
  after_results_simp <;> rfl
set_option maxHeartbeats 40000000 in
theorem feat1_eq : StableHlo.after hostOps1 U (Proc.devRef .tc main_v80) = hop (U (Proc.devRef .tc main_v10)) (U (Proc.devRef .tc main_v1)) (U (Proc.devRef .tc main_v3)) (U (Proc.devRef .tc main_v64)) := by
  after_results_simp <;> rfl
set_option maxHeartbeats 40000000 in
theorem feat2_eq : StableHlo.after hostOps1 U (Proc.devRef .tc main_v96) = hop (U (Proc.devRef .tc main_v10)) (U (Proc.devRef .tc main_v1)) (U (Proc.devRef .tc main_v3)) (hop (U (Proc.devRef .tc main_v10)) (U (Proc.devRef .tc main_v1)) (U (Proc.devRef .tc main_v3)) (U (Proc.devRef .tc main_v64))) := by
  after_results_simp <;> rfl
set_option maxHeartbeats 40000000 in
theorem feat3_eq : StableHlo.after hostOps1 U (Proc.devRef .tc main_v112) = hop (U (Proc.devRef .tc main_v10)) (U (Proc.devRef .tc main_v1)) (U (Proc.devRef .tc main_v3)) (hop (U (Proc.devRef .tc main_v10)) (U (Proc.devRef .tc main_v1)) (U (Proc.devRef .tc main_v3)) (hop (U (Proc.devRef .tc main_v10)) (U (Proc.devRef .tc main_v1)) (U (Proc.devRef .tc main_v3)) (U (Proc.devRef .tc main_v64)))) := by
  after_results_simp <;> rfl
set_option maxHeartbeats 40000000 in
theorem w0_eq : StableHlo.after hostOps1 U (Proc.devRef .tc main_v113) = extractStridedSlice S128x128 ![0, 0] (U (Proc.devRef .tc main_arg4)) slices_S512x128_S128x128_0_0 := by
  after_results_simp <;> rfl
set_option maxHeartbeats 40000000 in
theorem w1_eq : StableHlo.after hostOps1 U (Proc.devRef .tc main_v114) = extractStridedSlice S128x128 ![128, 0] (U (Proc.devRef .tc main_arg4)) slices_S512x128_S128x128_128_0 := by
  after_results_simp <;> rfl
set_option maxHeartbeats 40000000 in
theorem w2_eq : StableHlo.after hostOps1 U (Proc.devRef .tc main_v115) = extractStridedSlice S128x128 ![256, 0] (U (Proc.devRef .tc main_arg4)) slices_S512x128_S128x128_256_0 := by
  after_results_simp <;> rfl
set_option maxHeartbeats 40000000 in
theorem w3_eq : StableHlo.after hostOps1 U (Proc.devRef .tc main_v116) = extractStridedSlice S128x128 ![384, 0] (U (Proc.devRef .tc main_arg4)) slices_S512x128_S128x128_384_0 := by
  after_results_simp <;> rfl
set_option maxHeartbeats 40000000 in
theorem bias_eq : StableHlo.after hostOps1 U (Proc.devRef .tc main_v117) = shapeCast S1x128 (U (Proc.devRef .tc main_arg5)) shapeCasts_S128_S1x128 := by
  after_results_simp <;> rfl

end Cert.KernelIdeal.Entry1

end
-- ==== Proof.KernelRun.lean ====
/-
  The kernel program's run, with its result array named.

  The program is five stretches: host operations, the first launch, host operations, the second launch. The contents of
  every buffer at each boundary are a fold through these stretches; at the last boundary the result array holds what the
  second launch's write-backs leave, which is the layer function of the arrays that launch finds; those are the first
  launch's result (again the layer function, of the arrays IT finds) and its three hops, the second weight's four row
  slices and the second bias as a row; and the arrays the first launch finds are the input features and their three hops,
  the first weight's slices and the first bias. Reading each of these through the host stretches gives the result as two
  applications of `layerOut` to the argument arrays.
-/
import proofs.«135305_j9680856285475_1_alg».proof.Proof.Gen.KernelIdeal.Frame
import proofs.«135305_j9680856285475_1_alg».proof.Proof.KernelBlocks0
import proofs.«135305_j9680856285475_1_alg».proof.Proof.KernelBlocks1
import proofs.«135305_j9680856285475_1_alg».proof.Proof.Propagate
import proofs.«135305_j9680856285475_1_alg».proof.Proof.KernelEntry0
import proofs.«135305_j9680856285475_1_alg».proof.Proof.KernelEntry1

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents and
    the argument arrays as launched. -/
theorem run : θ_run defs (onTc (τ := τ) (main (F := F))) ⟨m, fun _ => 0, ρ⟩ (fun r => ∀ c : Dev nD,
      r.2.mem ((c.tc : Thread nD τ).loc main_v118) = W6 m ρ c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v118 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Run

/-! ## The result array, read back to the arguments -/

section Result

open Cert.Propagate Cert.TagLinear

variable (m : (ℓ : Loc nD τ sig) → Buf (Elt Ideal) ℓ) (ρ : Dev nD → PrngReg) (c : Dev nD)

/-- The kernel's result as a function of the argument arrays: two layers. -/
def twoLayers (m : (ℓ : Loc nD τ sig) → Buf (Elt Ideal) ℓ) (c : Dev nD) : Feat.Idx → EReal :=
  layerOut (m ((c : Thread nD τ).loc main_arg1))
    (layerOut (m ((c : Thread nD τ).loc main_arg1)) (m ((c : Thread nD τ).loc main_arg0)) (extractStridedSlice S128x128 ![0, 0] (m ((c : Thread nD τ).loc main_arg2)) slices_S512x128_S128x128_0_0) (extractStridedSlice S128x128 ![128, 0] (m ((c : Thread nD τ).loc main_arg2)) slices_S512x128_S128x128_128_0)
        (extractStridedSlice S128x128 ![256, 0] (m ((c : Thread nD τ).loc main_arg2)) slices_S512x128_S128x128_256_0) (extractStridedSlice S128x128 ![384, 0] (m ((c : Thread nD τ).loc main_arg2)) slices_S512x128_S128x128_384_0) (shapeCast S1x128 (m ((c : Thread nD τ).loc main_arg3)) shapeCasts_S128_S1x128))
    (extractStridedSlice S128x128 ![0, 0] (m ((c : Thread nD τ).loc main_arg4)) slices_S512x128_S128x128_0_0) (extractStridedSlice S128x128 ![128, 0] (m ((c : Thread nD τ).loc main_arg4)) slices_S512x128_S128x128_128_0)
    (extractStridedSlice S128x128 ![256, 0] (m ((c : Thread nD τ).loc main_arg4)) slices_S512x128_S128x128_256_0) (extractStridedSlice S128x128 ![384, 0] (m ((c : Thread nD τ).loc main_arg4)) slices_S512x128_S128x128_384_0) (shapeCast S1x128 (m ((c : Thread nD τ).loc main_arg5)) shapeCasts_S128_S1x128)

/-- After the first launch its result array holds the first layer. -/
theorem first_layer : W4 m ρ c (Proc.devRef .tc main_v64) = (layerOut (m ((c : Thread nD τ).loc main_arg1)) (m ((c : Thread nD τ).loc main_arg0)) (extractStridedSlice S128x128 ![0, 0] (m ((c : Thread nD τ).loc main_arg2)) slices_S512x128_S128x128_0_0) (extractStridedSlice S128x128 ![128, 0] (m ((c : Thread nD τ).loc main_arg2)) slices_S512x128_S128x128_128_0)
        (extractStridedSlice S128x128 ![256, 0] (m ((c : Thread nD τ).loc main_arg2)) slices_S512x128_S128x128_256_0) (extractStridedSlice S128x128 ![384, 0] (m ((c : Thread nD τ).loc main_arg2)) slices_S512x128_S128x128_384_0) (shapeCast S1x128 (m ((c : Thread nD τ).loc main_arg3)) shapeCasts_S128_S1x128)) := by
  refine (W4_arr m ρ c 9).trans ?_
  rw [Blocks0.result (V3 m ρ) c, Entry0.feat0_eq, Entry0.feat1_eq, Entry0.feat2_eq, Entry0.feat3_eq,
    Entry0.w0_eq, Entry0.w1_eq, Entry0.w2_eq, Entry0.w3_eq, Entry0.bias_eq]
  rfl

theorem norm_kept : W4 m ρ c (Proc.devRef .tc main_v10) = degNorm (dstOf (m ((c : Thread nD τ).loc main_arg1))) :=
  (W4_of_ne m ρ c main_v10 (by decide)).trans (Entry0.norm_eq m ρ c)
theorem src_kept : W4 m ρ c (Proc.devRef .tc main_v1) = srcOf (m ((c : Thread nD τ).loc main_arg1)) :=
  (W4_of_ne m ρ c main_v1 (by decide)).trans (Entry0.src_eq m ρ c)
theorem dst_kept : W4 m ρ c (Proc.devRef .tc main_v3) = dstOf (m ((c : Thread nD τ).loc main_arg1)) :=
  (W4_of_ne m ρ c main_v3 (by decide)).trans (Entry0.dst_eq m ρ c)
theorem arg4_kept : W4 m ρ c (Proc.devRef .tc main_arg4) = m ((c : Thread nD τ).loc main_arg4) :=
  (W4_of_ne m ρ c main_arg4 (by decide)).trans (Entry0.arg4_eq m ρ c)
theorem arg5_kept : W4 m ρ c (Proc.devRef .tc main_arg5) = m ((c : Thread nD τ).loc main_arg5) :=
  (W4_of_ne m ρ c main_arg5 (by decide)).trans (Entry0.arg5_eq m ρ c)

/-- After the second launch the result array holds the two layers. -/
theorem result_eq : W6 m ρ c (Proc.devRef .tc main_v118) = twoLayers m c := by
  refine (W6_arr m ρ c 9).trans ?_
  have f0 : V5 m ρ c main_v64 = _ := Entry1.feat0_eq (W4 m ρ c)
  have f1 : V5 m ρ c main_v80 = _ := Entry1.feat1_eq (W4 m ρ c)
  have f2 : V5 m ρ c main_v96 = _ := Entry1.feat2_eq (W4 m ρ c)
  have f3 : V5 m ρ c main_v112 = _ := Entry1.feat3_eq (W4 m ρ c)
  have g0 : V5 m ρ c main_v113 = _ := Entry1.w0_eq (W4 m ρ c)
  have g1 : V5 m ρ c main_v114 = _ := Entry1.w1_eq (W4 m ρ c)
  have g2 : V5 m ρ c main_v115 = _ := Entry1.w2_eq (W4 m ρ c)
  have g3 : V5 m ρ c main_v116 = _ := Entry1.w3_eq (W4 m ρ c)
  have gb : V5 m ρ c main_v117 = _ := Entry1.bias_eq (W4 m ρ c)
  rw [Blocks1.result (V5 m ρ) c, f0, f1, f2, f3, g0, g1, g2, g3, gb, first_layer, norm_kept, src_kept, dst_kept,
    arg4_kept, arg5_kept]
  rfl

/-- THE KERNEL'S RUN AT THE EXTENDED REALS: the result array ends at the two layers of the arguments, the arguments
    unchanged. -/
theorem run_value : θ_run defs (onTc (τ := τ) (main (F := Ideal))) ⟨m, fun _ => 0, ρ⟩ (fun r => ∀ c : Dev nD,
      r.2.mem ((c.tc : Thread nD τ).loc main_v118) = twoLayers m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run m ρ)

end Result

end Cert.KernelIdeal.Named

end
-- ==== Proof.RefOps.lean ====
/-
  The reference program as a list of host operations, in order, and its run over that list: every weakly fair execution
  terminates, nothing faulting, with every buffer at the fold of the operations' results over the launch contents. The
  list is also cut into six consecutive stretches — the edge list's rows and the in-degree; the in-degree raised to at least one; the degree factor
  and the first three hops; the first linear stage; the next three hops; the second linear stage — so that each stretch
  can be read by itself from whatever contents it starts at.
-/
import proofs.«135305_j9680856285475_1_alg».proof.Proof.Gen.ReferenceIdeal
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's 147 operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_v7) (TRef.of (T := ⟨S100000, .f32⟩) main_v8) maximumf,
    nullary main_cst_2 (constant S_ .f32 0xBF000000#32),
    unary main_cst_2 main_v9 (broadcastInDim S100000 ![] bcast_S_S100000 : (⟨S_, .f32⟩ : BufTy).Contents (Elt F) → (⟨S100000, .f32⟩ : BufTy).Contents (Elt F)),
    binary main_v8 main_v9 main_v10 (Host.powf : (⟨S100000, .f32⟩ : BufTy).Contents (Elt F) → (⟨S100000, .f32⟩ : BufTy).Contents (Elt F) → (⟨S100000, .f32⟩ : BufTy).Contents (Elt F)),
    unary main_v10 main_v11 (broadcastInDim S100000x1 ![0] bcast_S100000_S100000x1_0 : (⟨S100000, .f32⟩ : BufTy).Contents (Elt F) → (⟨S100000x1, .f32⟩ : BufTy).Contents (Elt F)),
    unary main_v11 main_v12 (broadcastInDim S100000x128 ![0, 1] bcast_S100000x1_S100000x128_0_1 : (⟨S100000x1, .f32⟩ : BufTy).Contents (Elt F) → (⟨S100000x128, .f32⟩ : BufTy).Contents (Elt F)),
    binary main_arg0 main_v12 main_v13 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v21 (broadcastInDim S100000x128 ![] bcast_S_S100000x128 : (⟨S_, .f32⟩ : BufTy).Contents (Elt F) → (⟨S100000x128, .f32⟩ : BufTy).Contents (Elt F)),
    unary main_v3 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v24 (broadcastInDim S100000x1 ![0] bcast_S100000_S100000x1_0 : (⟨S100000, .f32⟩ : BufTy).Contents (Elt F) → (⟨S100000x1, .f32⟩ : BufTy).Contents (Elt F)),
    unary main_v24 main_v25 (broadcastInDim S100000x128 ![0, 1] bcast_S100000x1_S100000x128_0_1 : (⟨S100000x1, .f32⟩ : BufTy).Contents (Elt F) → (⟨S100000x128, .f32⟩ : BufTy).Contents (Elt F)),
    binary main_v23 main_v25 main_v26 (mulf : (⟨S100000x128, .f32⟩ : BufTy).Contents (Elt F) → (⟨S100000x128, .f32⟩ : BufTy).Contents (Elt F) → (⟨S100000x128, .f32⟩ : BufTy).Contents (Elt F)),
    unary main_v10 main_v27 (broadcastInDim S100000x1 ![0] bcast_S100000_S100000x1_0 : (⟨S100000, .f32⟩ : BufTy).Contents (Elt F) → (⟨S100000x1, .f32⟩ : BufTy).Contents (Elt F)),
    unary main_v27 main_v28 (broadcastInDim S100000x128 ![0, 1] bcast_S100000x1_S100000x128_0_1 : (⟨S100000x1, .f32⟩ : BufTy).Contents (Elt F) → (⟨S100000x128, .f32⟩ : BufTy).Contents (Elt F)),
    binary main_v26 main_v28 main_v29 (mulf : (⟨S100000x128, .f32⟩ : BufTy).Contents (Elt F) → (⟨S100000x128, .f32⟩ : BufTy).Contents (Elt F) → (⟨S100000x128, .f32⟩ : BufTy).Contents (Elt F)),
    nullary main_c_5 (constantI S_ 32 0#32),
    unary main_c_5 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v37 (broadcastInDim S100000x128 ![] bcast_S_S100000x128 : (⟨S_, .f32⟩ : BufTy).Contents (Elt F) → (⟨S100000x128, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v40 (broadcastInDim S100000x1 ![0] bcast_S100000_S100000x1_0 : (⟨S100000, .f32⟩ : BufTy).Contents (Elt F) → (⟨S100000x1, .f32⟩ : BufTy).Contents (Elt F)),
    unary main_v40 main_v41 (broadcastInDim S100000x128 ![0, 1] bcast_S100000x1_S100000x128_0_1 : (⟨S100000x1, .f32⟩ : BufTy).Contents (Elt F) → (⟨S100000x128, .f32⟩ : BufTy).Contents (Elt F)),
    binary main_v39 main_v41 main_v42 (mulf : (⟨S100000x128, .f32⟩ : BufTy).Contents (Elt F) → (⟨S100000x128, .f32⟩ : BufTy).Contents (Elt F) → (⟨S100000x128, .f32⟩ : BufTy).Contents (Elt F)),
    unary main_v10 main_v43 (broadcastInDim S100000x1 ![0] bcast_S100000_S100000x1_0 : (⟨S100000, .f32⟩ : BufTy).Contents (Elt F) → (⟨S100000x1, .f32⟩ : BufTy).Contents (Elt F)),
    unary main_v43 main_v44 (broadcastInDim S100000x128 ![0, 1] bcast_S100000x1_S100000x128_0_1 : (⟨S100000x1, .f32⟩ : BufTy).Contents (Elt F) → (⟨S100000x128, .f32⟩ : BufTy).Contents (Elt F)),
    binary main_v42 main_v44 main_v45 (mulf : (⟨S100000x128, .f32⟩ : BufTy).Contents (Elt F) → (⟨S100000x128, .f32⟩ : BufTy).Contents (Elt F) → (⟨S100000x128, .f32⟩ : BufTy).Contents (Elt F)),
    nullary main_c_8 (constantI S_ 32 0#32),
    unary main_c_8 main_v46 (broadcastInDim S1600000 ![] bcast_S_S1600000 : (⟨S_, .i32⟩ : BufTy).Contents (Elt F) → (⟨S1600000, .i32⟩ : BufTy).Contents (Elt F)),
    binary main_v1 main_v46 main_v47 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v48 (broadcastInDim S1600000 ![] bcast_S_S1600000 : (⟨S_, .i32⟩ : BufTy).Contents (Elt F) → (⟨S1600000, .i32⟩ : BufTy).Contents (Elt F)),
    binary main_v1 main_v48 main_v49 (addi : (⟨S1600000, .i32⟩ : BufTy).Contents (Elt F) → (⟨S1600000, .i32⟩ : BufTy).Contents (Elt F) → (⟨S1600000, .i32⟩ : BufTy).Contents (Elt F)),
    ternary main_v47 main_v49 main_v1 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v50 main_v51 (broadcastInDim S1600000x1 ![0] bcast_S1600000_S1600000x1_0 : (⟨S1600000, .i32⟩ : BufTy).Contents (Elt F) → (⟨S1600000x1, .i32⟩ : BufTy).Contents (Elt F)),
    binary main_v45 main_v51 main_v52 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v53 (broadcastInDim S100000x128 ![] bcast_S_S100000x128 : (⟨S_, .f32⟩ : BufTy).Contents (Elt F) → (⟨S100000x128, .f32⟩ : BufTy).Contents (Elt F)),
    unary main_v3 main_v54 (broadcastInDim S1600000x1 ![0] bcast_S1600000_S1600000x1_0 : (⟨S1600000, .i32⟩ : BufTy).Contents (Elt F) → (⟨S1600000x1, .i32⟩ : BufTy).Contents (Elt F)),
    ternary main_v53 main_v54 main_v52 main_v55 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v56 (broadcastInDim S100000x1 ![0] bcast_S100000_S100000x1_0 : (⟨S100000, .f32⟩ : BufTy).Contents (Elt F) → (⟨S100000x1, .f32⟩ : BufTy).Contents (Elt F)),
    unary main_v56 main_v57 (broadcastInDim S100000x128 ![0, 1] bcast_S100000x1_S100000x128_0_1 : (⟨S100000x1, .f32⟩ : BufTy).Contents (Elt F) → (⟨S100000x128, .f32⟩ : BufTy).Contents (Elt F)),
    binary main_v55 main_v57 main_v58 (mulf : (⟨S100000x128, .f32⟩ : BufTy).Contents (Elt F) → (⟨S100000x128, .f32⟩ : BufTy).Contents (Elt F) → (⟨S100000x128, .f32⟩ : BufTy).Contents (Elt F)),
    nary ![main_arg0, main_v26, main_v42, main_v58] main_v59 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    binary main_v59 main_arg2 main_v60 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    unary main_arg3 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v63) (TRef.of (T := ⟨S100000x128, .f32⟩) main_call1_v0) (TRef.of (T := ⟨S100000x128, .f32⟩) main_v64) maximumf,
    unary main_v10 main_v65 (broadcastInDim S100000x1 ![0] bcast_S100000_S100000x1_0 : (⟨S100000, .f32⟩ : BufTy).Contents (Elt F) → (⟨S100000x1, .f32⟩ : BufTy).Contents (Elt F)),
    unary main_v65 main_v66 (broadcastInDim S100000x128 ![0, 1] bcast_S100000x1_S100000x128_0_1 : (⟨S100000x1, .f32⟩ : BufTy).Contents (Elt F) → (⟨S100000x128, .f32⟩ : BufTy).Contents (Elt F)),
    binary main_v64 main_v66 main_v67 (mulf : (⟨S100000x128, .f32⟩ : BufTy).Contents (Elt F) → (⟨S100000x128, .f32⟩ : BufTy).Contents (Elt F) → (⟨S100000x128, .f32⟩ : BufTy).Contents (Elt F)),
    nullary main_c_11 (constantI S_ 32 0#32),
    unary main_c_11 main_v68 (broadcastInDim S1600000 ![] bcast_S_S1600000 : (⟨S_, .i32⟩ : BufTy).Contents (Elt F) → (⟨S1600000, .i32⟩ : BufTy).Contents (Elt F)),
    binary main_v1 main_v68 main_v69 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v70 (broadcastInDim S1600000 ![] bcast_S_S1600000 : (⟨S_, .i32⟩ : BufTy).Contents (Elt F) → (⟨S1600000, .i32⟩ : BufTy).Contents (Elt F)),
    binary main_v1 main_v70 main_v71 (addi : (⟨S1600000, .i32⟩ : BufTy).Contents (Elt F) → (⟨S1600000, .i32⟩ : BufTy).Contents (Elt F) → (⟨S1600000, .i32⟩ : BufTy).Contents (Elt F)),
    ternary main_v69 main_v71 main_v1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v72 main_v73 (broadcastInDim S1600000x1 ![0] bcast_S1600000_S1600000x1_0 : (⟨S1600000, .i32⟩ : BufTy).Contents (Elt F) → (⟨S1600000x1, .i32⟩ : BufTy).Contents (Elt F)),
    binary main_v67 main_v73 main_v74 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_13 (constant S_ .f32 0x00000000#32),
    unary main_cst_13 main_v75 (broadcastInDim S100000x128 ![] bcast_S_S100000x128 : (⟨S_, .f32⟩ : BufTy).Contents (Elt F) → (⟨S100000x128, .f32⟩ : BufTy).Contents (Elt F)),
    unary main_v3 main_v76 (broadcastInDim S1600000x1 ![0] bcast_S1600000_S1600000x1_0 : (⟨S1600000, .i32⟩ : BufTy).Contents (Elt F) → (⟨S1600000x1, .i32⟩ : BufTy).Contents (Elt F)),
    ternary main_v75 main_v76 main_v74 main_v77 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v78 (broadcastInDim S100000x1 ![0] bcast_S100000_S100000x1_0 : (⟨S100000, .f32⟩ : BufTy).Contents (Elt F) → (⟨S100000x1, .f32⟩ : BufTy).Contents (Elt F)),
    unary main_v78 main_v79 (broadcastInDim S100000x128 ![0, 1] bcast_S100000x1_S100000x128_0_1 : (⟨S100000x1, .f32⟩ : BufTy).Contents (Elt F) → (⟨S100000x128, .f32⟩ : BufTy).Contents (Elt F)),
    binary main_v77 main_v79 main_v80 (mulf : (⟨S100000x128, .f32⟩ : BufTy).Contents (Elt F) → (⟨S100000x128, .f32⟩ : BufTy).Contents (Elt F) → (⟨S100000x128, .f32⟩ : BufTy).Contents (Elt F)),
    unary main_v10 main_v81 (broadcastInDim S100000x1 ![0] bcast_S100000_S100000x1_0 : (⟨S100000, .f32⟩ : BufTy).Contents (Elt F) → (⟨S100000x1, .f32⟩ : BufTy).Contents (Elt F)),
    unary main_v81 main_v82 (broadcastInDim S100000x128 ![0, 1] bcast_S100000x1_S100000x128_0_1 : (⟨S100000x1, .f32⟩ : BufTy).Contents (Elt F) → (⟨S100000x128, .f32⟩ : BufTy).Contents (Elt F)),
    binary main_v80 main_v82 main_v83 (mulf : (⟨S100000x128, .f32⟩ : BufTy).Contents (Elt F) → (⟨S100000x128, .f32⟩ : BufTy).Contents (Elt F) → (⟨S100000x128, .f32⟩ : BufTy).Contents (Elt F)),
    nullary main_c_14 (constantI S_ 32 0#32),
    unary main_c_14 main_v84 (broadcastInDim S1600000 ![] bcast_S_S1600000 : (⟨S_, .i32⟩ : BufTy).Contents (Elt F) → (⟨S1600000, .i32⟩ : BufTy).Contents (Elt F)),
    binary main_v1 main_v84 main_v85 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v86 (broadcastInDim S1600000 ![] bcast_S_S1600000 : (⟨S_, .i32⟩ : BufTy).Contents (Elt F) → (⟨S1600000, .i32⟩ : BufTy).Contents (Elt F)),
    binary main_v1 main_v86 main_v87 (addi : (⟨S1600000, .i32⟩ : BufTy).Contents (Elt F) → (⟨S1600000, .i32⟩ : BufTy).Contents (Elt F) → (⟨S1600000, .i32⟩ : BufTy).Contents (Elt F)),
    ternary main_v85 main_v87 main_v1 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v88 main_v89 (broadcastInDim S1600000x1 ![0] bcast_S1600000_S1600000x1_0 : (⟨S1600000, .i32⟩ : BufTy).Contents (Elt F) → (⟨S1600000x1, .i32⟩ : BufTy).Contents (Elt F)),
    binary main_v83 main_v89 main_v90 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_16 (constant S_ .f32 0x00000000#32),
    unary main_cst_16 main_v91 (broadcastInDim S100000x128 ![] bcast_S_S100000x128 : (⟨S_, .f32⟩ : BufTy).Contents (Elt F) → (⟨S100000x128, .f32⟩ : BufTy).Contents (Elt F)),
    unary main_v3 main_v92 (broadcastInDim S1600000x1 ![0] bcast_S1600000_S1600000x1_0 : (⟨S1600000, .i32⟩ : BufTy).Contents (Elt F) → (⟨S1600000x1, .i32⟩ : BufTy).Contents (Elt F)),
    ternary main_v91 main_v92 main_v90 main_v93 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v94 (broadcastInDim S100000x1 ![0] bcast_S100000_S100000x1_0 : (⟨S100000, .f32⟩ : BufTy).Contents (Elt F) → (⟨S100000x1, .f32⟩ : BufTy).Contents (Elt F)),
    unary main_v94 main_v95 (broadcastInDim S100000x128 ![0, 1] bcast_S100000x1_S100000x128_0_1 : (⟨S100000x1, .f32⟩ : BufTy).Contents (Elt F) → (⟨S100000x128, .f32⟩ : BufTy).Contents (Elt F)),
    binary main_v93 main_v95 main_v96 (mulf : (⟨S100000x128, .f32⟩ : BufTy).Contents (Elt F) → (⟨S100000x128, .f32⟩ : BufTy).Contents (Elt F) → (⟨S100000x128, .f32⟩ : BufTy).Contents (Elt F)),
    unary main_v10 main_v97 (broadcastInDim S100000x1 ![0] bcast_S100000_S100000x1_0 : (⟨S100000, .f32⟩ : BufTy).Contents (Elt F) → (⟨S100000x1, .f32⟩ : BufTy).Contents (Elt F)),
    unary main_v97 main_v98 (broadcastInDim S100000x128 ![0, 1] bcast_S100000x1_S100000x128_0_1 : (⟨S100000x1, .f32⟩ : BufTy).Contents (Elt F) → (⟨S100000x128, .f32⟩ : BufTy).Contents (Elt F)),
    binary main_v96 main_v98 main_v99 (mulf : (⟨S100000x128, .f32⟩ : BufTy).Contents (Elt F) → (⟨S100000x128, .f32⟩ : BufTy).Contents (Elt F) → (⟨S100000x128, .f32⟩ : BufTy).Contents (Elt F)),
    nullary main_c_17 (constantI S_ 32 0#32),
    unary main_c_17 main_v100 (broadcastInDim S1600000 ![] bcast_S_S1600000 : (⟨S_, .i32⟩ : BufTy).Contents (Elt F) → (⟨S1600000, .i32⟩ : BufTy).Contents (Elt F)),
    binary main_v1 main_v100 main_v101 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v102 (broadcastInDim S1600000 ![] bcast_S_S1600000 : (⟨S_, .i32⟩ : BufTy).Contents (Elt F) → (⟨S1600000, .i32⟩ : BufTy).Contents (Elt F)),
    binary main_v1 main_v102 main_v103 (addi : (⟨S1600000, .i32⟩ : BufTy).Contents (Elt F) → (⟨S1600000, .i32⟩ : BufTy).Contents (Elt F) → (⟨S1600000, .i32⟩ : BufTy).Contents (Elt F)),
    ternary main_v101 main_v103 main_v1 main_v104 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v104 main_v105 (broadcastInDim S1600000x1 ![0] bcast_S1600000_S1600000x1_0 : (⟨S1600000, .i32⟩ : BufTy).Contents (Elt F) → (⟨S1600000x1, .i32⟩ : BufTy).Contents (Elt F)),
    binary main_v99 main_v105 main_v106 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_19 (constant S_ .f32 0x00000000#32),
    unary main_cst_19 main_v107 (broadcastInDim S100000x128 ![] bcast_S_S100000x128 : (⟨S_, .f32⟩ : BufTy).Contents (Elt F) → (⟨S100000x128, .f32⟩ : BufTy).Contents (Elt F)),
    unary main_v3 main_v108 (broadcastInDim S1600000x1 ![0] bcast_S1600000_S1600000x1_0 : (⟨S1600000, .i32⟩ : BufTy).Contents (Elt F) → (⟨S1600000x1, .i32⟩ : BufTy).Contents (Elt F)),
    ternary main_v107 main_v108 main_v106 main_v109 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v110 (broadcastInDim S100000x1 ![0] bcast_S100000_S100000x1_0 : (⟨S100000, .f32⟩ : BufTy).Contents (Elt F) → (⟨S100000x1, .f32⟩ : BufTy).Contents (Elt F)),
    unary main_v110 main_v111 (broadcastInDim S100000x128 ![0, 1] bcast_S100000x1_S100000x128_0_1 : (⟨S100000x1, .f32⟩ : BufTy).Contents (Elt F) → (⟨S100000x128, .f32⟩ : BufTy).Contents (Elt F)),
    binary main_v109 main_v111 main_v112 (mulf : (⟨S100000x128, .f32⟩ : BufTy).Contents (Elt F) → (⟨S100000x128, .f32⟩ : BufTy).Contents (Elt F) → (⟨S100000x128, .f32⟩ : BufTy).Contents (Elt F)),
    nary ![main_v64, main_v80, main_v96, main_v112] main_v113 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    binary main_v113 main_arg4 main_v114 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    unary main_arg5 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v114 main_v116 main_v117 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v117) (TRef.of (T := ⟨S100000x128, .f32⟩) main_call2_v0) (TRef.of (T := ⟨S100000x128, .f32⟩) main_v118) maximumf ]

/-- The edge list's two rows and the in-degree. -/
abbrev opsA1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32) ]

/-- The in-degree raised to at least one. -/
abbrev opsA2 : List (HloOp τ sig (Elt F)) :=
  [ TRef.unary (TRef.of (T := ⟨S_, .f32⟩) main_cst_1) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.binary (TRef.of (T := ⟨S100000, .f32⟩) main_call0_v1) (TRef.of (T := ⟨S100000, .f32⟩) main_v7) (TRef.of (T := ⟨S100000, .f32⟩) main_v8) maximumf ]

/-- The degree factor and the input features' first, second and third hops. -/
abbrev opsB : List (HloOp τ sig (Elt F)) :=
  [ nullary main_cst_2 (constant S_ .f32 0xBF000000#32),
    unary main_cst_2 main_v9 (broadcastInDim S100000 ![] bcast_S_S100000 : (⟨S_, .f32⟩ : BufTy).Contents (Elt F) → (⟨S100000, .f32⟩ : BufTy).Contents (Elt F)),
    binary main_v8 main_v9 main_v10 (Host.powf : (⟨S100000, .f32⟩ : BufTy).Contents (Elt F) → (⟨S100000, .f32⟩ : BufTy).Contents (Elt F) → (⟨S100000, .f32⟩ : BufTy).Contents (Elt F)),
    unary main_v10 main_v11 (broadcastInDim S100000x1 ![0] bcast_S100000_S100000x1_0 : (⟨S100000, .f32⟩ : BufTy).Contents (Elt F) → (⟨S100000x1, .f32⟩ : BufTy).Contents (Elt F)),
    unary main_v11 main_v12 (broadcastInDim S100000x128 ![0, 1] bcast_S100000x1_S100000x128_0_1 : (⟨S100000x1, .f32⟩ : BufTy).Contents (Elt F) → (⟨S100000x128, .f32⟩ : BufTy).Contents (Elt F)),
    binary main_arg0 main_v12 main_v13 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v21 (broadcastInDim S100000x128 ![] bcast_S_S100000x128 : (⟨S_, .f32⟩ : BufTy).Contents (Elt F) → (⟨S100000x128, .f32⟩ : BufTy).Contents (Elt F)),
    unary main_v3 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v24 (broadcastInDim S100000x1 ![0] bcast_S100000_S100000x1_0 : (⟨S100000, .f32⟩ : BufTy).Contents (Elt F) → (⟨S100000x1, .f32⟩ : BufTy).Contents (Elt F)),
    unary main_v24 main_v25 (broadcastInDim S100000x128 ![0, 1] bcast_S100000x1_S100000x128_0_1 : (⟨S100000x1, .f32⟩ : BufTy).Contents (Elt F) → (⟨S100000x128, .f32⟩ : BufTy).Contents (Elt F)),
    binary main_v23 main_v25 main_v26 (mulf : (⟨S100000x128, .f32⟩ : BufTy).Contents (Elt F) → (⟨S100000x128, .f32⟩ : BufTy).Contents (Elt F) → (⟨S100000x128, .f32⟩ : BufTy).Contents (Elt F)),
    unary main_v10 main_v27 (broadcastInDim S100000x1 ![0] bcast_S100000_S100000x1_0 : (⟨S100000, .f32⟩ : BufTy).Contents (Elt F) → (⟨S100000x1, .f32⟩ : BufTy).Contents (Elt F)),
    unary main_v27 main_v28 (broadcastInDim S100000x128 ![0, 1] bcast_S100000x1_S100000x128_0_1 : (⟨S100000x1, .f32⟩ : BufTy).Contents (Elt F) → (⟨S100000x128, .f32⟩ : BufTy).Contents (Elt F)),
    binary main_v26 main_v28 main_v29 (mulf : (⟨S100000x128, .f32⟩ : BufTy).Contents (Elt F) → (⟨S100000x128, .f32⟩ : BufTy).Contents (Elt F) → (⟨S100000x128, .f32⟩ : BufTy).Contents (Elt F)),
    nullary main_c_5 (constantI S_ 32 0#32),
    unary main_c_5 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v37 (broadcastInDim S100000x128 ![] bcast_S_S100000x128 : (⟨S_, .f32⟩ : BufTy).Contents (Elt F) → (⟨S100000x128, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v40 (broadcastInDim S100000x1 ![0] bcast_S100000_S100000x1_0 : (⟨S100000, .f32⟩ : BufTy).Contents (Elt F) → (⟨S100000x1, .f32⟩ : BufTy).Contents (Elt F)),
    unary main_v40 main_v41 (broadcastInDim S100000x128 ![0, 1] bcast_S100000x1_S100000x128_0_1 : (⟨S100000x1, .f32⟩ : BufTy).Contents (Elt F) → (⟨S100000x128, .f32⟩ : BufTy).Contents (Elt F)),
    binary main_v39 main_v41 main_v42 (mulf : (⟨S100000x128, .f32⟩ : BufTy).Contents (Elt F) → (⟨S100000x128, .f32⟩ : BufTy).Contents (Elt F) → (⟨S100000x128, .f32⟩ : BufTy).Contents (Elt F)),
    unary main_v10 main_v43 (broadcastInDim S100000x1 ![0] bcast_S100000_S100000x1_0 : (⟨S100000, .f32⟩ : BufTy).Contents (Elt F) → (⟨S100000x1, .f32⟩ : BufTy).Contents (Elt F)),
    unary main_v43 main_v44 (broadcastInDim S100000x128 ![0, 1] bcast_S100000x1_S100000x128_0_1 : (⟨S100000x1, .f32⟩ : BufTy).Contents (Elt F) → (⟨S100000x128, .f32⟩ : BufTy).Contents (Elt F)),
    binary main_v42 main_v44 main_v45 (mulf : (⟨S100000x128, .f32⟩ : BufTy).Contents (Elt F) → (⟨S100000x128, .f32⟩ : BufTy).Contents (Elt F) → (⟨S100000x128, .f32⟩ : BufTy).Contents (Elt F)),
    nullary main_c_8 (constantI S_ 32 0#32),
    unary main_c_8 main_v46 (broadcastInDim S1600000 ![] bcast_S_S1600000 : (⟨S_, .i32⟩ : BufTy).Contents (Elt F) → (⟨S1600000, .i32⟩ : BufTy).Contents (Elt F)),
    binary main_v1 main_v46 main_v47 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v48 (broadcastInDim S1600000 ![] bcast_S_S1600000 : (⟨S_, .i32⟩ : BufTy).Contents (Elt F) → (⟨S1600000, .i32⟩ : BufTy).Contents (Elt F)),
    binary main_v1 main_v48 main_v49 (addi : (⟨S1600000, .i32⟩ : BufTy).Contents (Elt F) → (⟨S1600000, .i32⟩ : BufTy).Contents (Elt F) → (⟨S1600000, .i32⟩ : BufTy).Contents (Elt F)),
    ternary main_v47 main_v49 main_v1 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v50 main_v51 (broadcastInDim S1600000x1 ![0] bcast_S1600000_S1600000x1_0 : (⟨S1600000, .i32⟩ : BufTy).Contents (Elt F) → (⟨S1600000x1, .i32⟩ : BufTy).Contents (Elt F)),
    binary main_v45 main_v51 main_v52 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v53 (broadcastInDim S100000x128 ![] bcast_S_S100000x128 : (⟨S_, .f32⟩ : BufTy).Contents (Elt F) → (⟨S100000x128, .f32⟩ : BufTy).Contents (Elt F)),
    unary main_v3 main_v54 (broadcastInDim S1600000x1 ![0] bcast_S1600000_S1600000x1_0 : (⟨S1600000, .i32⟩ : BufTy).Contents (Elt F) → (⟨S1600000x1, .i32⟩ : BufTy).Contents (Elt F)),
    ternary main_v53 main_v54 main_v52 main_v55 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v56 (broadcastInDim S100000x1 ![0] bcast_S100000_S100000x1_0 : (⟨S100000, .f32⟩ : BufTy).Contents (Elt F) → (⟨S100000x1, .f32⟩ : BufTy).Contents (Elt F)),
    unary main_v56 main_v57 (broadcastInDim S100000x128 ![0, 1] bcast_S100000x1_S100000x128_0_1 : (⟨S100000x1, .f32⟩ : BufTy).Contents (Elt F) → (⟨S100000x128, .f32⟩ : BufTy).Contents (Elt F)),
    binary main_v55 main_v57 main_v58 (mulf : (⟨S100000x128, .f32⟩ : BufTy).Contents (Elt F) → (⟨S100000x128, .f32⟩ : BufTy).Contents (Elt F) → (⟨S100000x128, .f32⟩ : BufTy).Contents (Elt F)) ]

/-- The first linear stage. -/
abbrev opsC : List (HloOp τ sig (Elt F)) :=
  [ nary ![main_arg0, main_v26, main_v42, main_v58] main_v59 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    binary main_v59 main_arg2 main_v60 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    unary main_arg3 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v63) (TRef.of (T := ⟨S100000x128, .f32⟩) main_call1_v0) (TRef.of (T := ⟨S100000x128, .f32⟩) main_v64) maximumf ]

/-- The three hops of the first layer's result. -/
abbrev opsD : List (HloOp τ sig (Elt F)) :=
  [ unary main_v10 main_v65 (broadcastInDim S100000x1 ![0] bcast_S100000_S100000x1_0 : (⟨S100000, .f32⟩ : BufTy).Contents (Elt F) → (⟨S100000x1, .f32⟩ : BufTy).Contents (Elt F)),
    unary main_v65 main_v66 (broadcastInDim S100000x128 ![0, 1] bcast_S100000x1_S100000x128_0_1 : (⟨S100000x1, .f32⟩ : BufTy).Contents (Elt F) → (⟨S100000x128, .f32⟩ : BufTy).Contents (Elt F)),
    binary main_v64 main_v66 main_v67 (mulf : (⟨S100000x128, .f32⟩ : BufTy).Contents (Elt F) → (⟨S100000x128, .f32⟩ : BufTy).Contents (Elt F) → (⟨S100000x128, .f32⟩ : BufTy).Contents (Elt F)),
    nullary main_c_11 (constantI S_ 32 0#32),
    unary main_c_11 main_v68 (broadcastInDim S1600000 ![] bcast_S_S1600000 : (⟨S_, .i32⟩ : BufTy).Contents (Elt F) → (⟨S1600000, .i32⟩ : BufTy).Contents (Elt F)),
    binary main_v1 main_v68 main_v69 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v70 (broadcastInDim S1600000 ![] bcast_S_S1600000 : (⟨S_, .i32⟩ : BufTy).Contents (Elt F) → (⟨S1600000, .i32⟩ : BufTy).Contents (Elt F)),
    binary main_v1 main_v70 main_v71 (addi : (⟨S1600000, .i32⟩ : BufTy).Contents (Elt F) → (⟨S1600000, .i32⟩ : BufTy).Contents (Elt F) → (⟨S1600000, .i32⟩ : BufTy).Contents (Elt F)),
    ternary main_v69 main_v71 main_v1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v72 main_v73 (broadcastInDim S1600000x1 ![0] bcast_S1600000_S1600000x1_0 : (⟨S1600000, .i32⟩ : BufTy).Contents (Elt F) → (⟨S1600000x1, .i32⟩ : BufTy).Contents (Elt F)),
    binary main_v67 main_v73 main_v74 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_13 (constant S_ .f32 0x00000000#32),
    unary main_cst_13 main_v75 (broadcastInDim S100000x128 ![] bcast_S_S100000x128 : (⟨S_, .f32⟩ : BufTy).Contents (Elt F) → (⟨S100000x128, .f32⟩ : BufTy).Contents (Elt F)),
    unary main_v3 main_v76 (broadcastInDim S1600000x1 ![0] bcast_S1600000_S1600000x1_0 : (⟨S1600000, .i32⟩ : BufTy).Contents (Elt F) → (⟨S1600000x1, .i32⟩ : BufTy).Contents (Elt F)),
    ternary main_v75 main_v76 main_v74 main_v77 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v78 (broadcastInDim S100000x1 ![0] bcast_S100000_S100000x1_0 : (⟨S100000, .f32⟩ : BufTy).Contents (Elt F) → (⟨S100000x1, .f32⟩ : BufTy).Contents (Elt F)),
    unary main_v78 main_v79 (broadcastInDim S100000x128 ![0, 1] bcast_S100000x1_S100000x128_0_1 : (⟨S100000x1, .f32⟩ : BufTy).Contents (Elt F) → (⟨S100000x128, .f32⟩ : BufTy).Contents (Elt F)),
    binary main_v77 main_v79 main_v80 (mulf : (⟨S100000x128, .f32⟩ : BufTy).Contents (Elt F) → (⟨S100000x128, .f32⟩ : BufTy).Contents (Elt F) → (⟨S100000x128, .f32⟩ : BufTy).Contents (Elt F)),
    unary main_v10 main_v81 (broadcastInDim S100000x1 ![0] bcast_S100000_S100000x1_0 : (⟨S100000, .f32⟩ : BufTy).Contents (Elt F) → (⟨S100000x1, .f32⟩ : BufTy).Contents (Elt F)),
    unary main_v81 main_v82 (broadcastInDim S100000x128 ![0, 1] bcast_S100000x1_S100000x128_0_1 : (⟨S100000x1, .f32⟩ : BufTy).Contents (Elt F) → (⟨S100000x128, .f32⟩ : BufTy).Contents (Elt F)),
    binary main_v80 main_v82 main_v83 (mulf : (⟨S100000x128, .f32⟩ : BufTy).Contents (Elt F) → (⟨S100000x128, .f32⟩ : BufTy).Contents (Elt F) → (⟨S100000x128, .f32⟩ : BufTy).Contents (Elt F)),
    nullary main_c_14 (constantI S_ 32 0#32),
    unary main_c_14 main_v84 (broadcastInDim S1600000 ![] bcast_S_S1600000 : (⟨S_, .i32⟩ : BufTy).Contents (Elt F) → (⟨S1600000, .i32⟩ : BufTy).Contents (Elt F)),
    binary main_v1 main_v84 main_v85 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v86 (broadcastInDim S1600000 ![] bcast_S_S1600000 : (⟨S_, .i32⟩ : BufTy).Contents (Elt F) → (⟨S1600000, .i32⟩ : BufTy).Contents (Elt F)),
    binary main_v1 main_v86 main_v87 (addi : (⟨S1600000, .i32⟩ : BufTy).Contents (Elt F) → (⟨S1600000, .i32⟩ : BufTy).Contents (Elt F) → (⟨S1600000, .i32⟩ : BufTy).Contents (Elt F)),
    ternary main_v85 main_v87 main_v1 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v88 main_v89 (broadcastInDim S1600000x1 ![0] bcast_S1600000_S1600000x1_0 : (⟨S1600000, .i32⟩ : BufTy).Contents (Elt F) → (⟨S1600000x1, .i32⟩ : BufTy).Contents (Elt F)),
    binary main_v83 main_v89 main_v90 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_16 (constant S_ .f32 0x00000000#32),
    unary main_cst_16 main_v91 (broadcastInDim S100000x128 ![] bcast_S_S100000x128 : (⟨S_, .f32⟩ : BufTy).Contents (Elt F) → (⟨S100000x128, .f32⟩ : BufTy).Contents (Elt F)),
    unary main_v3 main_v92 (broadcastInDim S1600000x1 ![0] bcast_S1600000_S1600000x1_0 : (⟨S1600000, .i32⟩ : BufTy).Contents (Elt F) → (⟨S1600000x1, .i32⟩ : BufTy).Contents (Elt F)),
    ternary main_v91 main_v92 main_v90 main_v93 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v94 (broadcastInDim S100000x1 ![0] bcast_S100000_S100000x1_0 : (⟨S100000, .f32⟩ : BufTy).Contents (Elt F) → (⟨S100000x1, .f32⟩ : BufTy).Contents (Elt F)),
    unary main_v94 main_v95 (broadcastInDim S100000x128 ![0, 1] bcast_S100000x1_S100000x128_0_1 : (⟨S100000x1, .f32⟩ : BufTy).Contents (Elt F) → (⟨S100000x128, .f32⟩ : BufTy).Contents (Elt F)),
    binary main_v93 main_v95 main_v96 (mulf : (⟨S100000x128, .f32⟩ : BufTy).Contents (Elt F) → (⟨S100000x128, .f32⟩ : BufTy).Contents (Elt F) → (⟨S100000x128, .f32⟩ : BufTy).Contents (Elt F)),
    unary main_v10 main_v97 (broadcastInDim S100000x1 ![0] bcast_S100000_S100000x1_0 : (⟨S100000, .f32⟩ : BufTy).Contents (Elt F) → (⟨S100000x1, .f32⟩ : BufTy).Contents (Elt F)),
    unary main_v97 main_v98 (broadcastInDim S100000x128 ![0, 1] bcast_S100000x1_S100000x128_0_1 : (⟨S100000x1, .f32⟩ : BufTy).Contents (Elt F) → (⟨S100000x128, .f32⟩ : BufTy).Contents (Elt F)),
    binary main_v96 main_v98 main_v99 (mulf : (⟨S100000x128, .f32⟩ : BufTy).Contents (Elt F) → (⟨S100000x128, .f32⟩ : BufTy).Contents (Elt F) → (⟨S100000x128, .f32⟩ : BufTy).Contents (Elt F)),
    nullary main_c_17 (constantI S_ 32 0#32),
    unary main_c_17 main_v100 (broadcastInDim S1600000 ![] bcast_S_S1600000 : (⟨S_, .i32⟩ : BufTy).Contents (Elt F) → (⟨S1600000, .i32⟩ : BufTy).Contents (Elt F)),
    binary main_v1 main_v100 main_v101 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v102 (broadcastInDim S1600000 ![] bcast_S_S1600000 : (⟨S_, .i32⟩ : BufTy).Contents (Elt F) → (⟨S1600000, .i32⟩ : BufTy).Contents (Elt F)),
    binary main_v1 main_v102 main_v103 (addi : (⟨S1600000, .i32⟩ : BufTy).Contents (Elt F) → (⟨S1600000, .i32⟩ : BufTy).Contents (Elt F) → (⟨S1600000, .i32⟩ : BufTy).Contents (Elt F)),
    ternary main_v101 main_v103 main_v1 main_v104 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v104 main_v105 (broadcastInDim S1600000x1 ![0] bcast_S1600000_S1600000x1_0 : (⟨S1600000, .i32⟩ : BufTy).Contents (Elt F) → (⟨S1600000x1, .i32⟩ : BufTy).Contents (Elt F)),
    binary main_v99 main_v105 main_v106 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_19 (constant S_ .f32 0x00000000#32),
    unary main_cst_19 main_v107 (broadcastInDim S100000x128 ![] bcast_S_S100000x128 : (⟨S_, .f32⟩ : BufTy).Contents (Elt F) → (⟨S100000x128, .f32⟩ : BufTy).Contents (Elt F)),
    unary main_v3 main_v108 (broadcastInDim S1600000x1 ![0] bcast_S1600000_S1600000x1_0 : (⟨S1600000, .i32⟩ : BufTy).Contents (Elt F) → (⟨S1600000x1, .i32⟩ : BufTy).Contents (Elt F)),
    ternary main_v107 main_v108 main_v106 main_v109 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v110 (broadcastInDim S100000x1 ![0] bcast_S100000_S100000x1_0 : (⟨S100000, .f32⟩ : BufTy).Contents (Elt F) → (⟨S100000x1, .f32⟩ : BufTy).Contents (Elt F)),
    unary main_v110 main_v111 (broadcastInDim S100000x128 ![0, 1] bcast_S100000x1_S100000x128_0_1 : (⟨S100000x1, .f32⟩ : BufTy).Contents (Elt F) → (⟨S100000x128, .f32⟩ : BufTy).Contents (Elt F)),
    binary main_v109 main_v111 main_v112 (mulf : (⟨S100000x128, .f32⟩ : BufTy).Contents (Elt F) → (⟨S100000x128, .f32⟩ : BufTy).Contents (Elt F) → (⟨S100000x128, .f32⟩ : BufTy).Contents (Elt F)) ]

/-- The second linear stage. -/
abbrev opsE : List (HloOp τ sig (Elt F)) :=
  [ nary ![main_v64, main_v80, main_v96, main_v112] main_v113 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    binary main_v113 main_arg4 main_v114 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    unary main_arg5 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v114 main_v116 main_v117 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v117) (TRef.of (T := ⟨S100000x128, .f32⟩) main_call2_v0) (TRef.of (T := ⟨S100000x128, .f32⟩) main_v118) maximumf ]

set_option maxRecDepth 8192 in
theorem ops_cut : (ops : List (HloOp τ sig (Elt F))) = opsA1 ++ (opsA2 ++ (opsB ++ (opsC ++ (opsD ++ opsE)))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nary_bufs_sub .., binary_bufs_sub .., unary_bufs_sub .., unary_bufs_sub .., binary_bufs_sub .., nullary_bufs_sub .., unary_bufs_sub .., binary_bufs_sub ..⟩

/-- The fold over the whole list is the fold over the stretches, one after the other. -/
theorem after_cut (V : Valuation τ sig (Elt F)) :
    after ops V = after opsE (after opsD (after opsC (after opsB (after opsA2 (after opsA1 V))))) := by
  rw [ops_cut, StableHlo.after_append, StableHlo.after_append, StableHlo.after_append, StableHlo.after_append,
    StableHlo.after_append]

set_option maxRecDepth 8192 in
set_option maxHeartbeats 4000000 in
/-- From any memory with zero counters every weakly fair execution terminates with every buffer at the stretches' fold
    over its launch contents. -/
theorem run_fold (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = after opsE (after opsD (after opsC (after opsB (after opsA2 (after opsA1 (launchContents m d)))))) (Proc.devRef .tc b) :=
  (θ_run defs _ _).mono (fun _ h d b => (h d b).trans (congrFun (after_cut (launchContents m d)) _))
    (run_seq scopedRefs_eq scopedSems_eq defs main (fun _ => ops) main_eq (fun _ => ops_sub) m ρ)

end Cert.ReferenceIdeal.HandRun

end
-- ==== Proof.RefStretch.lean ====
/-
  The reference's six stretches of host operations, each read over ANY contents `U` it may start from: what each
  stretch leaves in the buffers later stretches read, and that it leaves the other buffers — the arguments among them —
  as they were.
-/
import proofs.«135305_j9680856285475_1_alg».proof.Proof.RefOps
import proofs.«135305_j9680856285475_1_alg».proof.Proof.Propagate

set_option maxRecDepth 16384

noncomputable section

namespace Cert.ReferenceIdeal.Stretch

open Cert.ReferenceIdeal Cert.ReferenceIdeal.Gen Cert.ReferenceIdeal.HandRun Cert.Propagate
open Idealize.ShloMosaic Idealize.ShloMosaic.TcCoe Idealize.SL.Sem Idealize.ShloMosaic.StableHlo

variable (U : Valuation τ sig (Elt Ideal))

/-! ### The edge list's rows and the in-degree -/

set_option maxHeartbeats 40000000 in
theorem a_src : StableHlo.after opsA1 U (Proc.devRef .tc main_v1) = srcOf (U (Proc.devRef .tc main_arg1)) := by
  after_results_simp <;> rfl
set_option maxHeartbeats 40000000 in
theorem a_dst : StableHlo.after opsA1 U (Proc.devRef .tc main_v3) = dstOf (U (Proc.devRef .tc main_arg1)) := by
  after_results_simp <;> rfl
set_option maxHeartbeats 40000000 in
theorem a_deg : StableHlo.after opsA1 U (Proc.devRef .tc main_v7) = inDeg (dstOf (U (Proc.devRef .tc main_arg1))) := by
  after_results_simp <;> rfl
set_option maxHeartbeats 40000000 in
theorem a_one : StableHlo.after opsA1 U (Proc.devRef .tc main_cst_1) = constant (F := Ideal) S_ .f32 0x3F800000#32 := by
  after_results_simp <;> rfl
set_option maxHeartbeats 40000000 in
theorem a_keep_main_arg0 : StableHlo.after opsA1 U (Proc.devRef .tc main_arg0) = U (Proc.devRef .tc main_arg0) := by
  after_results_simp <;> rfl
set_option maxHeartbeats 40000000 in
theorem a_keep_main_arg1 : StableHlo.after opsA1 U (Proc.devRef .tc main_arg1) = U (Proc.devRef .tc main_arg1) := by
  after_results_simp <;> rfl
set_option maxHeartbeats 40000000 in
theorem a_keep_main_arg2 : StableHlo.after opsA1 U (Proc.devRef .tc main_arg2) = U (Proc.devRef .tc main_arg2) := by
  after_results_simp <;> rfl
set_option maxHeartbeats 40000000 in
theorem a_keep_main_arg3 : StableHlo.after opsA1 U (Proc.devRef .tc main_arg3) = U (Proc.devRef .tc main_arg3) := by
  after_results_simp <;> rfl
set_option maxHeartbeats 40000000 in
theorem a_keep_main_arg4 : StableHlo.after opsA1 U (Proc.devRef .tc main_arg4) = U (Proc.devRef .tc main_arg4) := by
  after_results_simp <;> rfl
set_option maxHeartbeats 40000000 in
theorem a_keep_main_arg5 : StableHlo.after opsA1 U (Proc.devRef .tc main_arg5) = U (Proc.devRef .tc main_arg5) := by
  after_results_simp <;> rfl

/-! ### The in-degree raised to at least one -/

set_option maxHeartbeats 40000000 in
theorem a2_clip : StableHlo.after opsA2 U (Proc.devRef .tc main_v8) = atLeast (U (Proc.devRef .tc main_cst_1)) (U (Proc.devRef .tc main_v7)) := by
  after_results_simp <;> rfl
set_option maxHeartbeats 40000000 in
theorem a2_keep_main_v1 : StableHlo.after opsA2 U (Proc.devRef .tc main_v1) = U (Proc.devRef .tc main_v1) := by
  after_results_simp <;> rfl
set_option maxHeartbeats 40000000 in
theorem a2_keep_main_v3 : StableHlo.after opsA2 U (Proc.devRef .tc main_v3) = U (Proc.devRef .tc main_v3) := by
  after_results_simp <;> rfl
set_option maxHeartbeats 40000000 in
theorem a2_keep_main_arg0 : StableHlo.after opsA2 U (Proc.devRef .tc main_arg0) = U (Proc.devRef .tc main_arg0) := by
  after_results_simp <;> rfl
set_option maxHeartbeats 40000000 in
theorem a2_keep_main_arg1 : StableHlo.after opsA2 U (Proc.devRef .tc main_arg1) = U (Proc.devRef .tc main_arg1) := by
  after_results_simp <;> rfl
set_option maxHeartbeats 40000000 in
theorem a2_keep_main_arg2 : StableHlo.after opsA2 U (Proc.devRef .tc main_arg2) = U (Proc.devRef .tc main_arg2) := by
  after_results_simp <;> rfl
set_option maxHeartbeats 40000000 in
theorem a2_keep_main_arg3 : StableHlo.after opsA2 U (Proc.devRef .tc main_arg3) = U (Proc.devRef .tc main_arg3) := by
  after_results_simp <;> rfl
set_option maxHeartbeats 40000000 in
theorem a2_keep_main_arg4 : StableHlo.after opsA2 U (Proc.devRef .tc main_arg4) = U (Proc.devRef .tc main_arg4) := by
  after_results_simp <;> rfl
set_option maxHeartbeats 40000000 in
theorem a2_keep_main_arg5 : StableHlo.after opsA2 U (Proc.devRef .tc main_arg5) = U (Proc.devRef .tc main_arg5) := by
  after_results_simp <;> rfl

/-! ### The degree factor and the first three hops -/

set_option maxHeartbeats 40000000 in
theorem b_norm : StableHlo.after opsB U (Proc.devRef .tc main_v10) = invSqrt (U (Proc.devRef .tc main_v8)) := by
  after_results_simp <;> rfl
set_option maxHeartbeats 40000000 in
theorem b_feat1 : StableHlo.after opsB U (Proc.devRef .tc main_v26) = hop (invSqrt (U (Proc.devRef .tc main_v8))) (U (Proc.devRef .tc main_v1)) (U (Proc.devRef .tc main_v3)) (U (Proc.devRef .tc main_arg0)) := by
  after_results_simp <;> rfl
set_option maxHeartbeats 40000000 in
theorem b_feat2 : StableHlo.after opsB U (Proc.devRef .tc main_v42) = hop (invSqrt (U (Proc.devRef .tc main_v8))) (U (Proc.devRef .tc main_v1)) (U (Proc.devRef .tc main_v3)) (hop (invSqrt (U (Proc.devRef .tc main_v8))) (U (Proc.devRef .tc main_v1)) (U (Proc.devRef .tc main_v3)) (U (Proc.devRef .tc main_arg0))) := by
  after_results_simp <;> rfl
set_option maxHeartbeats 40000000 in
theorem b_feat3 : StableHlo.after opsB U (Proc.devRef .tc main_v58) = hop (invSqrt (U (Proc.devRef .tc main_v8))) (U (Proc.devRef .tc main_v1)) (U (Proc.devRef .tc main_v3)) (hop (invSqrt (U (Proc.devRef .tc main_v8))) (U (Proc.devRef .tc main_v1)) (U (Proc.devRef .tc main_v3)) (hop (invSqrt (U (Proc.devRef .tc main_v8))) (U (Proc.devRef .tc main_v1)) (U (Proc.devRef .tc main_v3)) (U (Proc.devRef .tc main_arg0)))) := by
  after_results_simp <;> rfl
set_option maxHeartbeats 40000000 in
theorem b_keep_main_v1 : StableHlo.after opsB U (Proc.devRef .tc main_v1) = U (Proc.devRef .tc main_v1) := by
  after_results_simp <;> rfl
set_option maxHeartbeats 40000000 in
theorem b_keep_main_v3 : StableHlo.after opsB U (Proc.devRef .tc main_v3) = U (Proc.devRef .tc main_v3) := by
  after_results_simp <;> rfl
set_option maxHeartbeats 40000000 in
theorem b_keep_main_arg0 : StableHlo.after opsB U (Proc.devRef .tc main_arg0) = U (Proc.devRef .tc main_arg0) := by
  after_results_simp <;> rfl
set_option maxHeartbeats 40000000 in
theorem b_keep_main_arg1 : StableHlo.after opsB U (Proc.devRef .tc main_arg1) = U (Proc.devRef .tc main_arg1) := by
  after_results_simp <;> rfl
set_option maxHeartbeats 40000000 in
theorem b_keep_main_arg2 : StableHlo.after opsB U (Proc.devRef .tc main_arg2) = U (Proc.devRef .tc main_arg2) := by
  after_results_simp <;> rfl
set_option maxHeartbeats 40000000 in
theorem b_keep_main_arg3 : StableHlo.after opsB U (Proc.devRef .tc main_arg3) = U (Proc.devRef .tc main_arg3) := by
  after_results_simp <;> rfl
set_option maxHeartbeats 40000000 in
theorem b_keep_main_arg4 : StableHlo.after opsB U (Proc.devRef .tc main_arg4) = U (Proc.devRef .tc main_arg4) := by
  after_results_simp <;> rfl
set_option maxHeartbeats 40000000 in
theorem b_keep_main_arg5 : StableHlo.after opsB U (Proc.devRef .tc main_arg5) = U (Proc.devRef .tc main_arg5) := by
  after_results_simp <;> rfl

/-! ### The first linear stage -/

set_option maxHeartbeats 40000000 in
theorem c_out : StableHlo.after opsC U (Proc.devRef .tc main_v64) = refLinear (U (Proc.devRef .tc main_arg0)) (U (Proc.devRef .tc main_v26)) (U (Proc.devRef .tc main_v42)) (U (Proc.devRef .tc main_v58)) (U (Proc.devRef .tc main_arg2)) (U (Proc.devRef .tc main_arg3)) := by
  after_results_simp <;> rfl
set_option maxHeartbeats 40000000 in
theorem c_keep_main_v10 : StableHlo.after opsC U (Proc.devRef .tc main_v10) = U (Proc.devRef .tc main_v10) := by
  after_results_simp <;> rfl
set_option maxHeartbeats 40000000 in
theorem c_keep_main_v1 : StableHlo.after opsC U (Proc.devRef .tc main_v1) = U (Proc.devRef .tc main_v1) := by
  after_results_simp <;> rfl
set_option maxHeartbeats 40000000 in
theorem c_keep_main_v3 : StableHlo.after opsC U (Proc.devRef .tc main_v3) = U (Proc.devRef .tc main_v3) := by
  after_results_simp <;> rfl
set_option maxHeartbeats 40000000 in
theorem c_keep_main_arg0 : StableHlo.after opsC U (Proc.devRef .tc main_arg0) = U (Proc.devRef .tc main_arg0) := by
  after_results_simp <;> rfl
set_option maxHeartbeats 40000000 in
theorem c_keep_main_arg1 : StableHlo.after opsC U (Proc.devRef .tc main_arg1) = U (Proc.devRef .tc main_arg1) := by
  after_results_simp <;> rfl
set_option maxHeartbeats 40000000 in
theorem c_keep_main_arg2 : StableHlo.after opsC U (Proc.devRef .tc main_arg2) = U (Proc.devRef .tc main_arg2) := by
  after_results_simp <;> rfl
set_option maxHeartbeats 40000000 in
theorem c_keep_main_arg3 : StableHlo.after opsC U (Proc.devRef .tc main_arg3) = U (Proc.devRef .tc main_arg3) := by
  after_results_simp <;> rfl
set_option maxHeartbeats 40000000 in
theorem c_keep_main_arg4 : StableHlo.after opsC U (Proc.devRef .tc main_arg4) = U (Proc.devRef .tc main_arg4) := by
  after_results_simp <;> rfl
set_option maxHeartbeats 40000000 in
theorem c_keep_main_arg5 : StableHlo.after opsC U (Proc.devRef .tc main_arg5) = U (Proc.devRef .tc main_arg5) := by
  after_results_simp <;> rfl

/-! ### The three hops of the first layer's result -/

set_option maxHeartbeats 40000000 in
theorem d_feat1 : StableHlo.after opsD U (Proc.devRef .tc main_v80) = hop (U (Proc.devRef .tc main_v10)) (U (Proc.devRef .tc main_v1)) (U (Proc.devRef .tc main_v3)) (U (Proc.devRef .tc main_v64)) := by
  after_results_simp <;> rfl
set_option maxHeartbeats 40000000 in
theorem d_feat2 : StableHlo.after opsD U (Proc.devRef .tc main_v96) = hop (U (Proc.devRef .tc main_v10)) (U (Proc.devRef .tc main_v1)) (U (Proc.devRef .tc main_v3)) (hop (U (Proc.devRef .tc main_v10)) (U (Proc.devRef .tc main_v1)) (U (Proc.devRef .tc main_v3)) (U (Proc.devRef .tc main_v64))) := by
  after_results_simp <;> rfl
set_option maxHeartbeats 40000000 in
theorem d_feat3 : StableHlo.after opsD U (Proc.devRef .tc main_v112) = hop (U (Proc.devRef .tc main_v10)) (U (Proc.devRef .tc main_v1)) (U (Proc.devRef .tc main_v3)) (hop (U (Proc.devRef .tc main_v10)) (U (Proc.devRef .tc main_v1)) (U (Proc.devRef .tc main_v3)) (hop (U (Proc.devRef .tc main_v10)) (U (Proc.devRef .tc main_v1)) (U (Proc.devRef .tc main_v3)) (U (Proc.devRef .tc main_v64)))) := by
  after_results_simp <;> rfl
set_option maxHeartbeats 40000000 in
theorem d_keep_main_v64 : StableHlo.after opsD U (Proc.devRef .tc main_v64) = U (Proc.devRef .tc main_v64) := by
  after_results_simp <;> rfl
set_option maxHeartbeats 40000000 in
theorem d_keep_main_arg0 : StableHlo.after opsD U (Proc.devRef .tc main_arg0) = U (Proc.devRef .tc main_arg0) := by
  after_results_simp <;> rfl
set_option maxHeartbeats 40000000 in
theorem d_keep_main_arg1 : StableHlo.after opsD U (Proc.devRef .tc main_arg1) = U (Proc.devRef .tc main_arg1) := by
  after_results_simp <;> rfl
set_option maxHeartbeats 40000000 in
theorem d_keep_main_arg2 : StableHlo.after opsD U (Proc.devRef .tc main_arg2) = U (Proc.devRef .tc main_arg2) := by
  after_results_simp <;> rfl
set_option maxHeartbeats 40000000 in
theorem d_keep_main_arg3 : StableHlo.after opsD U (Proc.devRef .tc main_arg3) = U (Proc.devRef .tc main_arg3) := by
  after_results_simp <;> rfl
set_option maxHeartbeats 40000000 in
theorem d_keep_main_arg4 : StableHlo.after opsD U (Proc.devRef .tc main_arg4) = U (Proc.devRef .tc main_arg4) := by
  after_results_simp <;> rfl
set_option maxHeartbeats 40000000 in
theorem d_keep_main_arg5 : StableHlo.after opsD U (Proc.devRef .tc main_arg5) = U (Proc.devRef .tc main_arg5) := by
  after_results_simp <;> rfl

/-! ### The second linear stage -/

set_option maxHeartbeats 40000000 in
theorem e_out : StableHlo.after opsE U (Proc.devRef .tc main_v118) = refLinear (U (Proc.devRef .tc main_v64)) (U (Proc.devRef .tc main_v80)) (U (Proc.devRef .tc main_v96)) (U (Proc.devRef .tc main_v112)) (U (Proc.devRef .tc main_arg4)) (U (Proc.devRef .tc main_arg5)) := by
  after_results_simp <;> rfl
set_option maxHeartbeats 40000000 in
theorem e_keep_main_arg0 : StableHlo.after opsE U (Proc.devRef .tc main_arg0) = U (Proc.devRef .tc main_arg0) := by
  after_results_simp <;> rfl
set_option maxHeartbeats 40000000 in
theorem e_keep_main_arg1 : StableHlo.after opsE U (Proc.devRef .tc main_arg1) = U (Proc.devRef .tc main_arg1) := by
  after_results_simp <;> rfl
set_option maxHeartbeats 40000000 in
theorem e_keep_main_arg2 : StableHlo.after opsE U (Proc.devRef .tc main_arg2) = U (Proc.devRef .tc main_arg2) := by
  after_results_simp <;> rfl
set_option maxHeartbeats 40000000 in
theorem e_keep_main_arg3 : StableHlo.after opsE U (Proc.devRef .tc main_arg3) = U (Proc.devRef .tc main_arg3) := by
  after_results_simp <;> rfl
set_option maxHeartbeats 40000000 in
theorem e_keep_main_arg4 : StableHlo.after opsE U (Proc.devRef .tc main_arg4) = U (Proc.devRef .tc main_arg4) := by
  after_results_simp <;> rfl
set_option maxHeartbeats 40000000 in
theorem e_keep_main_arg5 : StableHlo.after opsE U (Proc.devRef .tc main_arg5) = U (Proc.devRef .tc main_arg5) := by
  after_results_simp <;> rfl

end Cert.ReferenceIdeal.Stretch

end
-- ==== Proof.RefStages.lean ====
/-
  The reference, read stretch by stretch. Its two linear stages — the four feature arrays laid side by side, one
  contraction over 512 columns with the whole weight, the flat bias spread over the rows and added, the negative part
  cut off — are the layer function `linearRelu` of the four arrays, the weight's four 128-row slices and the bias as
  a row, by the law `contract_sideBySide`: read at row `r`, column `q`, the contraction is the sum over the 512
  columns and the spread bias is the bias at `q`. The stretches between them are the shared propagation terms. Chained
  from the launch memory, the reference's result is two applications of `layerOut` to the arguments, and the
  arguments are left as they were.
-/
import proofs.«135305_j9680856285475_1_alg».proof.Proof.RefStretch
import proofs.«135305_j9680856285475_1_alg».proof.Proof.Propagate
import proofs.«135305_j9680856285475_1_alg».proof.Proof.Layer
import Idealize.ShloMosaic.Lib.ValueIdx
import Idealize.ShloMosaic.Lib.Pipeline.Value
import Idealize.ShloMosaic.PureOps.Ideal.Laws

set_option maxRecDepth 16384

noncomputable section

namespace Cert.ReferenceIdeal.Bridge

open Cert.ReferenceIdeal Cert.ReferenceIdeal.Gen Cert.ReferenceIdeal.HandRun Cert.ReferenceIdeal.Stretch Cert.Propagate Cert.TagLinear
open Idealize.ShloMosaic Idealize.ShloMosaic.TcCoe Idealize.ShloMosaic.ValueIdx Idealize.SL.Sem Idealize.ShloMosaic.StableHlo

/-! ## The linear stage at an index -/

theorem lhs_row (i : S100000x128.Idx) (c : dot_S100000x512_S512x128_S100000x128_1_0_0_1_n_n.contr.Idx) : (dot_S100000x512_S512x128_S100000x128_1_0_0_1_n_n.lhsIdx i c 0).val = (i 0).val := by
  unfold DotDims.lhsIdx
  rw [dif_neg (show ¬(0 : Fin S100000x512.rank) ∈ dot_S100000x512_S512x128_S100000x128_1_0_0_1_n_n.lhsBatch by decide),
    dif_pos (show (0 : Fin S100000x512.rank) ∈ dot_S100000x512_S512x128_S100000x128_1_0_0_1_n_n.lhsNonContracting by decide)]
  rfl
theorem lhs_col (i : S100000x128.Idx) (c : dot_S100000x512_S512x128_S100000x128_1_0_0_1_n_n.contr.Idx) : (dot_S100000x512_S512x128_S100000x128_1_0_0_1_n_n.lhsIdx i c 1).val = (c ⟨0, by decide⟩).val :=
  dot_S100000x512_S512x128_S100000x128_1_0_0_1_n_n.lhsIdx_val_of_single rfl i c
theorem rhs_row (i : S100000x128.Idx) (c : dot_S100000x512_S512x128_S100000x128_1_0_0_1_n_n.contr.Idx) : (dot_S100000x512_S512x128_S100000x128_1_0_0_1_n_n.rhsIdx i c 0).val = (c ⟨0, by decide⟩).val :=
  dot_S100000x512_S512x128_S100000x128_1_0_0_1_n_n.rhsIdx_val_of_single rfl i c
theorem rhs_col (i : S100000x128.Idx) (c : dot_S100000x512_S512x128_S100000x128_1_0_0_1_n_n.contr.Idx) : (dot_S100000x512_S512x128_S100000x128_1_0_0_1_n_n.rhsIdx i c 1).val = (i 1).val := by
  unfold DotDims.rhsIdx
  rw [dif_neg (show ¬(1 : Fin S512x128.rank) ∈ dot_S100000x512_S512x128_S100000x128_1_0_0_1_n_n.rhsBatch by decide),
    dif_pos (show (1 : Fin S512x128.rank) ∈ dot_S100000x512_S512x128_S100000x128_1_0_0_1_n_n.rhsNonContracting by decide)]
  rfl

/-- The host's contraction at `[r, q]`: the sum over the 512 contracted columns. -/
theorem contract_at (y : FVec Ideal S100000x512 .f32) (W : FVec Ideal S512x128 .f32) (r : Fin 100000) (q : Fin 128) :
    Host.dotGeneral (F := Ideal) dot_S100000x512_S512x128_S100000x128_1_0_0_1_n_n none y W (ix2 r q) = ∑ k : Fin 512, y (ix2 r k) * W (ix2 k q) := by
  simp only [Host.dotGeneral]
  rw [Ideal.dotGeneral_apply, ← Equiv.sum_comp (contrEquiv1 dot_S100000x512_S512x128_S100000x128_1_0_0_1_n_n 512 rfl rfl).symm]
  refine Finset.sum_congr rfl fun k _ => ?_
  have hk := contrEquiv1_symm_val dot_S100000x512_S512x128_S100000x128_1_0_0_1_n_n 512 rfl rfl k
  have el : dot_S100000x512_S512x128_S100000x128_1_0_0_1_n_n.lhsIdx (ix2 r q) ((contrEquiv1 dot_S100000x512_S512x128_S100000x128_1_0_0_1_n_n 512 rfl rfl).symm k) = ix2 r k :=
    funext fun a => Fin.ext (by
      match a with
      | ⟨0, _⟩ => exact lhs_row _ _
      | ⟨1, _⟩ => exact (lhs_col _ _).trans hk)
  have er : dot_S100000x512_S512x128_S100000x128_1_0_0_1_n_n.rhsIdx (ix2 r q) ((contrEquiv1 dot_S100000x512_S512x128_S100000x128_1_0_0_1_n_n 512 rfl rfl).symm k) = ix2 k q :=
    funext fun a => Fin.ext (by
      match a with
      | ⟨0, _⟩ => exact (rhs_row _ _).trans hk
      | ⟨1, _⟩ => exact rhs_col _ _)
  rw [el, er]

/-- The flat bias spread over the rows, at `[r, q]`: the bias at `q`. -/
theorem biasAll_at (b : (⟨S128, .f32⟩ : BufTy).Contents (Elt Ideal)) (r : Fin 100000) (q : Fin 128) :
    broadcastInDim S100000x128 ![0, 1] bcast_S1x128_S100000x128_0_1 (broadcastInDim S1x128 ![1] bcast_S128_S1x128_1 b) (ix2 r q)
      = b (ix1 q) :=
  (broadcastInDim_apply ![0, 1] bcast_S1x128_S100000x128_0_1 (broadcastInDim S1x128 ![1] bcast_S128_S1x128_1 b) (ix2 r q) (ix2 0 q)
    (fun a => by
      match a with
      | ⟨0, _⟩ => show 0 = if (1 : Nat) = 1 then 0 else r.val; rw [if_pos rfl]
      | ⟨1, _⟩ => show q.val = if (128 : Nat) = 1 then 0 else q.val; rw [if_neg (by decide)])).trans
  (broadcastInDim_apply ![1] bcast_S128_S1x128_1 b (ix2 0 q) (ix1 q)
    (fun a => by
      match a with
      | ⟨0, _⟩ => show q.val = if (128 : Nat) = 1 then 0 else q.val; rw [if_neg (by decide)]))

variable (s0 : WgtAll.Slices ![0, 0] Wgt) (s1 : WgtAll.Slices ![128, 0] Wgt) (s2 : WgtAll.Slices ![256, 0] Wgt)
  (s3 : WgtAll.Slices ![384, 0] Wgt) (sb : BiasFlat.ShapeCasts BiasRow)

/-- The reference's linear stage is the layer function over the weight's slices and the bias row. -/
theorem refLinear_eq (h0 h1 h2 h3 : (⟨S100000x128, .f32⟩ : BufTy).Contents (Elt Ideal))
    (W : (⟨S512x128, .f32⟩ : BufTy).Contents (Elt Ideal)) (b : (⟨S128, .f32⟩ : BufTy).Contents (Elt Ideal)) :
    refLinear (F := Ideal) h0 h1 h2 h3 W b
      = linearRelu h0 h1 h2 h3 (extractStridedSlice Wgt ![0, 0] (W) s0) (extractStridedSlice Wgt ![128, 0] (W) s1) (extractStridedSlice Wgt ![256, 0] (W) s2) (extractStridedSlice Wgt ![384, 0] (W) s3) (shapeCast BiasRow b sb) := by
  funext i
  obtain ⟨r, q, rfl⟩ : ∃ (r : Fin 100000) (q : Fin 128), i = ix2 r q := ⟨i 0, i 1, eq_ix2 i⟩
  rw [linearRelu_ix2]
  refine Eq.trans ?_ (contract_sideBySide h0 h1 h2 h3 W b
    concatenates_S100000x128_S100000x128_S100000x128_S100000x128_S100000x512_d1 s0 s1 s2 s3 sb r q)
  unfold refLinear
  show max (Host.dotGeneral (F := Ideal) dot_S100000x512_S512x128_S100000x128_1_0_0_1_n_n none
      (concatenate S100000x512 1 [⟨S100000x128, h0⟩, ⟨S100000x128, h1⟩, ⟨S100000x128, h2⟩, ⟨S100000x128, h3⟩]
        concatenates_S100000x128_S100000x128_S100000x128_S100000x128_S100000x512_d1) W (ix2 r q)
    + broadcastInDim S100000x128 ![0, 1] bcast_S1x128_S100000x128_0_1 (broadcastInDim S1x128 ![1] bcast_S128_S1x128_1 b) (ix2 r q))
    (Ideal.ofBits .f32 0x00000000#32) = _
  rw [contract_at, biasAll_at, Ideal.ofBits_zero_f32]

/-- One whole layer: the reference's spelling is the shared one. -/
theorem refLayer_eq (ei : (⟨S2x1600000, .i32⟩ : BufTy).Contents (Elt Ideal)) (h : (⟨S100000x128, .f32⟩ : BufTy).Contents (Elt Ideal))
    (W : (⟨S512x128, .f32⟩ : BufTy).Contents (Elt Ideal)) (b : (⟨S128, .f32⟩ : BufTy).Contents (Elt Ideal)) :
    refLayer (F := Ideal) ei h W b
      = layerOut ei h (extractStridedSlice Wgt ![0, 0] (W) s0) (extractStridedSlice Wgt ![128, 0] (W) s1) (extractStridedSlice Wgt ![256, 0] (W) s2) (extractStridedSlice Wgt ![384, 0] (W) s3) (shapeCast BiasRow b sb) := by
  unfold refLayer layerOut hopOf
  exact refLinear_eq s0 s1 s2 s3 sb _ _ _ _ W b

/-! ## The stretches chained from any starting contents -/

section Chain

variable (V : Valuation τ sig (Elt Ideal))

abbrev RA1 : Valuation τ sig (Elt Ideal) := StableHlo.after opsA1 V
abbrev RA : Valuation τ sig (Elt Ideal) := StableHlo.after opsA2 (RA1 V)
abbrev RB : Valuation τ sig (Elt Ideal) := StableHlo.after opsB (RA V)
abbrev RC : Valuation τ sig (Elt Ideal) := StableHlo.after opsC (RB V)
abbrev RD : Valuation τ sig (Elt Ideal) := StableHlo.after opsD (RC V)
abbrev RE : Valuation τ sig (Elt Ideal) := StableHlo.after opsE (RD V)

theorem ra1_main_arg0 : RA1 V (Proc.devRef .tc main_arg0) = V (Proc.devRef .tc main_arg0) := a_keep_main_arg0 V
theorem ra_main_arg0 : RA V (Proc.devRef .tc main_arg0) = V (Proc.devRef .tc main_arg0) := (a2_keep_main_arg0 (RA1 V)).trans (ra1_main_arg0 V)
theorem rb_main_arg0 : RB V (Proc.devRef .tc main_arg0) = V (Proc.devRef .tc main_arg0) := (b_keep_main_arg0 (RA V)).trans (ra_main_arg0 V)
theorem rc_main_arg0 : RC V (Proc.devRef .tc main_arg0) = V (Proc.devRef .tc main_arg0) := (c_keep_main_arg0 (RB V)).trans (rb_main_arg0 V)
theorem rd_main_arg0 : RD V (Proc.devRef .tc main_arg0) = V (Proc.devRef .tc main_arg0) := (d_keep_main_arg0 (RC V)).trans (rc_main_arg0 V)
theorem re_main_arg0 : RE V (Proc.devRef .tc main_arg0) = V (Proc.devRef .tc main_arg0) := (e_keep_main_arg0 (RD V)).trans (rd_main_arg0 V)
theorem ra1_main_arg1 : RA1 V (Proc.devRef .tc main_arg1) = V (Proc.devRef .tc main_arg1) := a_keep_main_arg1 V
theorem ra_main_arg1 : RA V (Proc.devRef .tc main_arg1) = V (Proc.devRef .tc main_arg1) := (a2_keep_main_arg1 (RA1 V)).trans (ra1_main_arg1 V)
theorem rb_main_arg1 : RB V (Proc.devRef .tc main_arg1) = V (Proc.devRef .tc main_arg1) := (b_keep_main_arg1 (RA V)).trans (ra_main_arg1 V)
theorem rc_main_arg1 : RC V (Proc.devRef .tc main_arg1) = V (Proc.devRef .tc main_arg1) := (c_keep_main_arg1 (RB V)).trans (rb_main_arg1 V)
theorem rd_main_arg1 : RD V (Proc.devRef .tc main_arg1) = V (Proc.devRef .tc main_arg1) := (d_keep_main_arg1 (RC V)).trans (rc_main_arg1 V)
theorem re_main_arg1 : RE V (Proc.devRef .tc main_arg1) = V (Proc.devRef .tc main_arg1) := (e_keep_main_arg1 (RD V)).trans (rd_main_arg1 V)
theorem ra1_main_arg2 : RA1 V (Proc.devRef .tc main_arg2) = V (Proc.devRef .tc main_arg2) := a_keep_main_arg2 V
theorem ra_main_arg2 : RA V (Proc.devRef .tc main_arg2) = V (Proc.devRef .tc main_arg2) := (a2_keep_main_arg2 (RA1 V)).trans (ra1_main_arg2 V)
theorem rb_main_arg2 : RB V (Proc.devRef .tc main_arg2) = V (Proc.devRef .tc main_arg2) := (b_keep_main_arg2 (RA V)).trans (ra_main_arg2 V)
theorem rc_main_arg2 : RC V (Proc.devRef .tc main_arg2) = V (Proc.devRef .tc main_arg2) := (c_keep_main_arg2 (RB V)).trans (rb_main_arg2 V)
theorem rd_main_arg2 : RD V (Proc.devRef .tc main_arg2) = V (Proc.devRef .tc main_arg2) := (d_keep_main_arg2 (RC V)).trans (rc_main_arg2 V)
theorem re_main_arg2 : RE V (Proc.devRef .tc main_arg2) = V (Proc.devRef .tc main_arg2) := (e_keep_main_arg2 (RD V)).trans (rd_main_arg2 V)
theorem ra1_main_arg3 : RA1 V (Proc.devRef .tc main_arg3) = V (Proc.devRef .tc main_arg3) := a_keep_main_arg3 V
theorem ra_main_arg3 : RA V (Proc.devRef .tc main_arg3) = V (Proc.devRef .tc main_arg3) := (a2_keep_main_arg3 (RA1 V)).trans (ra1_main_arg3 V)
theorem rb_main_arg3 : RB V (Proc.devRef .tc main_arg3) = V (Proc.devRef .tc main_arg3) := (b_keep_main_arg3 (RA V)).trans (ra_main_arg3 V)
theorem rc_main_arg3 : RC V (Proc.devRef .tc main_arg3) = V (Proc.devRef .tc main_arg3) := (c_keep_main_arg3 (RB V)).trans (rb_main_arg3 V)
theorem rd_main_arg3 : RD V (Proc.devRef .tc main_arg3) = V (Proc.devRef .tc main_arg3) := (d_keep_main_arg3 (RC V)).trans (rc_main_arg3 V)
theorem re_main_arg3 : RE V (Proc.devRef .tc main_arg3) = V (Proc.devRef .tc main_arg3) := (e_keep_main_arg3 (RD V)).trans (rd_main_arg3 V)
theorem ra1_main_arg4 : RA1 V (Proc.devRef .tc main_arg4) = V (Proc.devRef .tc main_arg4) := a_keep_main_arg4 V
theorem ra_main_arg4 : RA V (Proc.devRef .tc main_arg4) = V (Proc.devRef .tc main_arg4) := (a2_keep_main_arg4 (RA1 V)).trans (ra1_main_arg4 V)
theorem rb_main_arg4 : RB V (Proc.devRef .tc main_arg4) = V (Proc.devRef .tc main_arg4) := (b_keep_main_arg4 (RA V)).trans (ra_main_arg4 V)
theorem rc_main_arg4 : RC V (Proc.devRef .tc main_arg4) = V (Proc.devRef .tc main_arg4) := (c_keep_main_arg4 (RB V)).trans (rb_main_arg4 V)
theorem rd_main_arg4 : RD V (Proc.devRef .tc main_arg4) = V (Proc.devRef .tc main_arg4) := (d_keep_main_arg4 (RC V)).trans (rc_main_arg4 V)
theorem re_main_arg4 : RE V (Proc.devRef .tc main_arg4) = V (Proc.devRef .tc main_arg4) := (e_keep_main_arg4 (RD V)).trans (rd_main_arg4 V)
theorem ra1_main_arg5 : RA1 V (Proc.devRef .tc main_arg5) = V (Proc.devRef .tc main_arg5) := a_keep_main_arg5 V
theorem ra_main_arg5 : RA V (Proc.devRef .tc main_arg5) = V (Proc.devRef .tc main_arg5) := (a2_keep_main_arg5 (RA1 V)).trans (ra1_main_arg5 V)
theorem rb_main_arg5 : RB V (Proc.devRef .tc main_arg5) = V (Proc.devRef .tc main_arg5) := (b_keep_main_arg5 (RA V)).trans (ra_main_arg5 V)
theorem rc_main_arg5 : RC V (Proc.devRef .tc main_arg5) = V (Proc.devRef .tc main_arg5) := (c_keep_main_arg5 (RB V)).trans (rb_main_arg5 V)
theorem rd_main_arg5 : RD V (Proc.devRef .tc main_arg5) = V (Proc.devRef .tc main_arg5) := (d_keep_main_arg5 (RC V)).trans (rc_main_arg5 V)
theorem re_main_arg5 : RE V (Proc.devRef .tc main_arg5) = V (Proc.devRef .tc main_arg5) := (e_keep_main_arg5 (RD V)).trans (rd_main_arg5 V)

theorem ra_src : RA V (Proc.devRef .tc main_v1) = srcOf (V (Proc.devRef .tc main_arg1)) := (a2_keep_main_v1 (RA1 V)).trans (a_src V)
theorem ra_dst : RA V (Proc.devRef .tc main_v3) = dstOf (V (Proc.devRef .tc main_arg1)) := (a2_keep_main_v3 (RA1 V)).trans (a_dst V)
theorem ra_clip : RA V (Proc.devRef .tc main_v8) = atLeast (constant (F := Ideal) S_ .f32 0x3F800000#32) (inDeg (dstOf (V (Proc.devRef .tc main_arg1)))) := by
  refine (a2_clip (RA1 V)).trans ?_
  rw [show RA1 V (Proc.devRef .tc main_cst_1) = _ from a_one V, show RA1 V (Proc.devRef .tc main_v7) = _ from a_deg V]

theorem rb_src : RB V (Proc.devRef .tc main_v1) = srcOf (V (Proc.devRef .tc main_arg1)) := (b_keep_main_v1 (RA V)).trans (ra_src V)
theorem rb_dst : RB V (Proc.devRef .tc main_v3) = dstOf (V (Proc.devRef .tc main_arg1)) := (b_keep_main_v3 (RA V)).trans (ra_dst V)
theorem rb_norm : RB V (Proc.devRef .tc main_v10) = degNorm (dstOf (V (Proc.devRef .tc main_arg1))) := by
  refine (b_norm (RA V)).trans ?_
  rw [ra_clip]; rfl
theorem rb_feat1 : RB V (Proc.devRef .tc main_v26) = hopOf (V (Proc.devRef .tc main_arg1)) (V (Proc.devRef .tc main_arg0)) := by
  refine (b_feat1 (RA V)).trans ?_
  rw [ra_clip, ra_src, ra_dst, ra_main_arg0]; rfl
theorem rb_feat2 : RB V (Proc.devRef .tc main_v42) = hopOf (V (Proc.devRef .tc main_arg1)) (hopOf (V (Proc.devRef .tc main_arg1)) (V (Proc.devRef .tc main_arg0))) := by
  refine (b_feat2 (RA V)).trans ?_
  rw [ra_clip, ra_src, ra_dst, ra_main_arg0]; rfl
theorem rb_feat3 : RB V (Proc.devRef .tc main_v58) = hopOf (V (Proc.devRef .tc main_arg1)) (hopOf (V (Proc.devRef .tc main_arg1)) (hopOf (V (Proc.devRef .tc main_arg1)) (V (Proc.devRef .tc main_arg0)))) := by
  refine (b_feat3 (RA V)).trans ?_
  rw [ra_clip, ra_src, ra_dst, ra_main_arg0]; rfl

theorem rc_src : RC V (Proc.devRef .tc main_v1) = srcOf (V (Proc.devRef .tc main_arg1)) := (c_keep_main_v1 (RB V)).trans (rb_src V)
theorem rc_dst : RC V (Proc.devRef .tc main_v3) = dstOf (V (Proc.devRef .tc main_arg1)) := (c_keep_main_v3 (RB V)).trans (rb_dst V)
theorem rc_norm : RC V (Proc.devRef .tc main_v10) = degNorm (dstOf (V (Proc.devRef .tc main_arg1))) := (c_keep_main_v10 (RB V)).trans (rb_norm V)
theorem rc_out : RC V (Proc.devRef .tc main_v64) = refLayer (V (Proc.devRef .tc main_arg1)) (V (Proc.devRef .tc main_arg0)) (V (Proc.devRef .tc main_arg2)) (V (Proc.devRef .tc main_arg3)) := by
  refine (c_out (RB V)).trans ?_
  rw [rb_main_arg0, rb_feat1, rb_feat2, rb_feat3, rb_main_arg2, rb_main_arg3]; rfl

theorem rd_out : RD V (Proc.devRef .tc main_v64) = refLayer (V (Proc.devRef .tc main_arg1)) (V (Proc.devRef .tc main_arg0)) (V (Proc.devRef .tc main_arg2)) (V (Proc.devRef .tc main_arg3)) := (d_keep_main_v64 (RC V)).trans (rc_out V)
theorem rd_feat1 : RD V (Proc.devRef .tc main_v80) = hopOf (V (Proc.devRef .tc main_arg1)) (refLayer (V (Proc.devRef .tc main_arg1)) (V (Proc.devRef .tc main_arg0)) (V (Proc.devRef .tc main_arg2)) (V (Proc.devRef .tc main_arg3))) := by
  refine (d_feat1 (RC V)).trans ?_
  rw [rc_norm, rc_src, rc_dst, rc_out]; rfl
theorem rd_feat2 : RD V (Proc.devRef .tc main_v96) = hopOf (V (Proc.devRef .tc main_arg1)) (hopOf (V (Proc.devRef .tc main_arg1)) (refLayer (V (Proc.devRef .tc main_arg1)) (V (Proc.devRef .tc main_arg0)) (V (Proc.devRef .tc main_arg2)) (V (Proc.devRef .tc main_arg3)))) := by
  refine (d_feat2 (RC V)).trans ?_
  rw [rc_norm, rc_src, rc_dst, rc_out]; rfl
theorem rd_feat3 : RD V (Proc.devRef .tc main_v112) = hopOf (V (Proc.devRef .tc main_arg1)) (hopOf (V (Proc.devRef .tc main_arg1)) (hopOf (V (Proc.devRef .tc main_arg1)) (refLayer (V (Proc.devRef .tc main_arg1)) (V (Proc.devRef .tc main_arg0)) (V (Proc.devRef .tc main_arg2)) (V (Proc.devRef .tc main_arg3))))) := by
  refine (d_feat3 (RC V)).trans ?_
  rw [rc_norm, rc_src, rc_dst, rc_out]; rfl

/-- After the last stretch the result buffer holds two layers, as the reference spells them. -/
theorem re_out : RE V (Proc.devRef .tc main_v118)
    = refLayer (V (Proc.devRef .tc main_arg1)) (refLayer (V (Proc.devRef .tc main_arg1)) (V (Proc.devRef .tc main_arg0)) (V (Proc.devRef .tc main_arg2)) (V (Proc.devRef .tc main_arg3))) (V (Proc.devRef .tc main_arg4)) (V (Proc.devRef .tc main_arg5)) := by
  refine (e_out (RD V)).trans ?_
  rw [rd_out, rd_feat1, rd_feat2, rd_feat3, rd_main_arg4, rd_main_arg5]; rfl

end Chain

/-! ## The run -/

variable (t0 : WgtAll.Slices ![0, 0] Wgt) (t1 : WgtAll.Slices ![128, 0] Wgt) (t2 : WgtAll.Slices ![256, 0] Wgt)
  (t3 : WgtAll.Slices ![384, 0] Wgt) (tb : BiasFlat.ShapeCasts BiasRow)

/-- THE REFERENCE'S RUN AT THE EXTENDED REALS: the result array ends at the two layers of the arguments, the arguments
    unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118)
        = layerOut (m ((c.tc : Thread nD τ).loc main_arg1))
            (layerOut (m ((c.tc : Thread nD τ).loc main_arg1)) (m ((c.tc : Thread nD τ).loc main_arg0)) (extractStridedSlice Wgt ![0, 0] (m ((c.tc : Thread nD τ).loc main_arg2)) s0) (extractStridedSlice Wgt ![128, 0] (m ((c.tc : Thread nD τ).loc main_arg2)) s1)
              (extractStridedSlice Wgt ![256, 0] (m ((c.tc : Thread nD τ).loc main_arg2)) s2) (extractStridedSlice Wgt ![384, 0] (m ((c.tc : Thread nD τ).loc main_arg2)) s3) (shapeCast BiasRow (m ((c.tc : Thread nD τ).loc main_arg3)) sb))
            (extractStridedSlice Wgt ![0, 0] (m ((c.tc : Thread nD τ).loc main_arg4)) t0) (extractStridedSlice Wgt ![128, 0] (m ((c.tc : Thread nD τ).loc main_arg4)) t1)
            (extractStridedSlice Wgt ![256, 0] (m ((c.tc : Thread nD τ).loc main_arg4)) t2) (extractStridedSlice Wgt ![384, 0] (m ((c.tc : Thread nD τ).loc main_arg4)) t3) (shapeCast BiasRow (m ((c.tc : Thread nD τ).loc main_arg5)) tb)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v118).trans (by
          refine (re_out (launchContents m c)).trans ?_
          rw [refLayer_eq t0 t1 t2 t3 tb, refLayer_eq s0 s1 s2 s3 sb]),
       (h c main_arg0).trans (re_main_arg0 (launchContents m c)),
       (h c main_arg1).trans (re_main_arg1 (launchContents m c)),
       (h c main_arg2).trans (re_main_arg2 (launchContents m c)),
       (h c main_arg3).trans (re_main_arg3 (launchContents m c)),
       (h c main_arg4).trans (re_main_arg4 (launchContents m c)),
       (h c main_arg5).trans (re_main_arg5 (launchContents m c))⟩)
    (run_fold m ρ)

end Cert.ReferenceIdeal.Bridge

end
-- ==== Proof.lean ====
/-
  Two graph-convolution layers: the kernel against its reference, at the extended reals.

  Each layer takes node features, propagates them one, two and three hops along the graph (the same host operations in
  both programs), and applies a linear stage to the four arrays, a bias and a cut at zero. The reference lays the four
  arrays side by side and contracts once over 512 columns with the whole weight; the kernel contracts each array with
  its own 128-row slice of the weight, block of 5000 rows by block, and adds the four partial products. A sum over 512
  indices is the sum of its four runs of 128, in any commutative additive monoid, so the two linear stages are one
  function of the arrays (`Cert.TagLinear.contract_sideBySide`), and so are the two programs' results: two applications
  of `Cert.Propagate.layerOut` to the arguments. No entry is asked to be finite.

  The kernel's side reads the result array off its run (`Cert.KernelIdeal.Named.run_value`): what the second launch
  writes back, over what the first wrote back, each read from blocks to the whole array and through the host
  operations around the launches. The reference's side reads its run stretch by stretch
  (`Cert.ReferenceIdeal.Bridge.run_value`). The ideal pass rewrote nothing, so the kernel's idealization is its own text.
-/
import proofs.«135305_j9680856285475_1_alg».proof.Defs
import proofs.«135305_j9680856285475_1_alg».proof.Proof.Gen.Kernel
import proofs.«135305_j9680856285475_1_alg».proof.Proof.Gen.Kernel.Frame
import proofs.«135305_j9680856285475_1_alg».proof.Proof.Gen.KernelIdeal
import proofs.«135305_j9680856285475_1_alg».proof.Proof.Gen.KernelIdeal.Frame
import proofs.«135305_j9680856285475_1_alg».proof.Proof.Gen.ReferenceIdeal
import proofs.«135305_j9680856285475_1_alg».proof.Proof.Gen.Pre_finite_inputs
import proofs.«135305_j9680856285475_1_alg».proof.Proof.KernelRun
import proofs.«135305_j9680856285475_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2)
    (Cert.ReferenceIdeal.Bridge.run_value
      Cert.KernelIdeal.Gen.slices_S512x128_S128x128_0_0 Cert.KernelIdeal.Gen.slices_S512x128_S128x128_128_0
      Cert.KernelIdeal.Gen.slices_S512x128_S128x128_256_0 Cert.KernelIdeal.Gen.slices_S512x128_S128x128_384_0
      Cert.KernelIdeal.Gen.shapeCasts_S128_S1x128
      Cert.KernelIdeal.Gen.slices_S512x128_S128x128_0_0 Cert.KernelIdeal.Gen.slices_S512x128_S128x128_128_0
      Cert.KernelIdeal.Gen.slices_S512x128_S128x128_256_0 Cert.KernelIdeal.Gen.slices_S512x128_S128x128_384_0
      Cert.KernelIdeal.Gen.shapeCasts_S128_S1x128 m ρ)

/-- The ideal pass rewrote no operation. -/
theorem preserves : Cert.preserves_Kernel_KernelIdeal := trivial

/-- Both programs end with the result array at the two layers of the (agreeing) arguments. -/
theorem algebraic : Cert.algebraic_KernelIdeal_ReferenceIdeal := by
  intro m ρ m' ρ' _ hagree
  refine ⟨fun c => Cert.KernelIdeal.Named.twoLayers m c, Cert.KernelIdeal.Named.run_value m ρ, ?_⟩
  refine (θ_run Cert.ReferenceIdeal.defs _ _).mono (fun _ h c => ⟨(h c).1.trans ?_, (h c).2⟩)
    (Cert.ReferenceIdeal.Bridge.run_value
      Cert.KernelIdeal.Gen.slices_S512x128_S128x128_0_0 Cert.KernelIdeal.Gen.slices_S512x128_S128x128_128_0
      Cert.KernelIdeal.Gen.slices_S512x128_S128x128_256_0 Cert.KernelIdeal.Gen.slices_S512x128_S128x128_384_0
      Cert.KernelIdeal.Gen.shapeCasts_S128_S1x128
      Cert.KernelIdeal.Gen.slices_S512x128_S128x128_0_0 Cert.KernelIdeal.Gen.slices_S512x128_S128x128_128_0
      Cert.KernelIdeal.Gen.slices_S512x128_S128x128_256_0 Cert.KernelIdeal.Gen.slices_S512x128_S128x128_384_0
      Cert.KernelIdeal.Gen.shapeCasts_S128_S1x128 m' ρ')
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
